-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x165 : Shape := ⟨2, ![200000, 165]⟩
abbrev S2x400000 : Shape := ⟨2, ![2, 400000]⟩
abbrev S165x512 : Shape := ⟨2, ![165, 512]⟩
abbrev S512 : Shape := ⟨1, ![512]⟩
abbrev S512x512 : Shape := ⟨2, ![512, 512]⟩
abbrev S512x2 : Shape := ⟨2, ![512, 2]⟩
abbrev S2 : Shape := ⟨1, ![2]⟩
abbrev S_ : Shape := ⟨0, ![]⟩

class Facts : Prop where
  bcast_S_S200000x165 : S_.BroadcastsInDim S200000x165 (![] : Fin 0 → Fin S200000x165.rank)
  reducesTo_S200000x165_S_d0_1 : S200000x165.ReducesTo [0, 1] S_
  h_S_ : 0 < S_.numel
  bcast_S_S165x512 : S_.BroadcastsInDim S165x512 (![] : Fin 0 → Fin S165x512.rank)
  reducesTo_S165x512_S_d0_1 : S165x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S512x2 .f32) (main_arg9 : FVec F S2 .f32) (main_v33 : IVec S_ 1) : IVec S_ 1 :=
  let main_v34 : FVec F S512x2 .f32 := Host.absf main_arg8
  let main_cst_12 : FVec F S_ .f32 := constant S_ .f32 0x7F800000#32
  let main_v35 : FVec F S512x2 .f32 := broadcastInDim S512x2 ![] bcast_S_S512x2 main_cst_12
  let main_v36 : IVec S512x2 1 := cmpf .olt main_v34 main_v35
  let main_c_13 : IVec S_ 1 := constantI S_ 1 1#1
  let main_v37 : IVec S_ 1 := (fun x v => Host.reduce IntOp.andi x v reducesTo_S512x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S512x512 .f32) (main_arg6 : FVec F S512x512 .f32) (main_arg7 : FVec F S512 .f32) (main_arg8 : FVec F S512x2 .f32) (main_arg9 : FVec F S2 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : FVec F S200000x165 .f32) (main_arg1 : IVec S2x400000 32) (main_arg2 : FVec F S165x512 .f32) (main_arg3 : FVec F S165x512 .f32) (main_arg4 : FVec F S512 .f32) (main_arg5 : FVec F S512x512 .f32) (main_arg6 : FVec F S512x512 .f32) (main_arg7 : FVec F S512 .f32) (main_arg8 : FVec F S512x2 .f32) (main_arg9 : FVec F S2 .f32) : IVec S_ 1 :=
  let main_v0 : FVec F S200000x165 .f32 := Host.absf main_arg0
  let main_cst : FVec F S_ .f32 := constant S_ .f32 0x7F800000#32
  let main_v1 : FVec F S200000x165 .f32 := broadcastInDim S200000x165 ![] bcast_S_S200000x165 main_cst
  let main_v2 : IVec S200000x165 1 := cmpf .olt main_v0 main_v1
  let main_c : IVec S_ 1 := constantI S_ 1 1#1
  let main_v3 : IVec S_ 1 := (fun x v => Host.reduce IntOp.andi x v reducesTo_S200000x165_S_d0_1 h_S_) main_v2 main_c
  let main_v4 : FVec F S165x512 .f32 := Host.absf main_arg2
  let main_cst_0 : FVec F S_ .f32 := constant S_ .f32 0x7F800000#32
  let main_v5 : FVec F S165x512 .f32 := broadcastInDim S165x512 ![] bcast_S_S165x512 main_cst_0
  let main_v6 : IVec S165x512 1 := cmpf .olt main_v4 main_v5
  let main_c_1 : IVec S_ 1 := constantI S_ 1 1#1
  let main_v7 : IVec S_ 1 := (fun x v => Host.reduce IntOp.andi x v reducesTo_S165x512_S_d0_1 h_S_) main_v6 main_c_1
  let main_v8 : IVec S_ 1 := andi main_v3 main_v7
  let main_v9 : FVec F S165x512 .f32 := Host.absf main_arg3
  let main_cst_2 : FVec F S_ .f32 := constant S_ .f32 0x7F800000#32
  let main_v10 : FVec F S165x512 .f32 := broadcastInDim S165x512 ![] bcast_S_S165x512 main_cst_2
  let main_v11 : IVec S165x512 1 := cmpf .olt main_v9 main_v10
  let main_c_3 : IVec S_ 1 := constantI S_ 1 1#1
  let main_v12 : IVec S_ 1 := (fun x v => Host.reduce IntOp.andi x v reducesTo_S165x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_v13 main_v16
-- ==== Kernel.lean ====
abbrev S200000x165 : Shape := ⟨2, ![200000, 165]⟩
abbrev S2x400000 : Shape := ⟨2, ![2, 400000]⟩
abbrev S165x512 : Shape := ⟨2, ![165, 512]⟩
abbrev S512 : Shape := ⟨1, ![512]⟩
abbrev S512x512 : Shape := ⟨2, ![512, 512]⟩
abbrev S512x2 : Shape := ⟨2, ![512, 2]⟩
abbrev S2 : Shape := ⟨1, ![2]⟩
abbrev S1x400000 : Shape := ⟨2, ![1, 400000]⟩
abbrev S400000 : Shape := ⟨1, ![400000]⟩
abbrev S_ : Shape := ⟨0, ![]⟩
abbrev S200000 : Shape := ⟨1, ![200000]⟩
abbrev S400000x1 : Shape := ⟨2, ![400000, 1]⟩
abbrev S400000x165 : Shape := ⟨2, ![400000, 165]⟩
abbrev S1x512 : Shape := ⟨2, ![1, 512]⟩
abbrev S200000x512 : Shape := ⟨2, ![200000, 512]⟩
abbrev S1000x165 : Shape := ⟨2, ![1000, 165]⟩
abbrev S1000x512 : Shape := ⟨2, ![1000, 512]⟩
abbrev S400000x512 : Shape := ⟨2, ![400000, 512]⟩
abbrev S1x2 : Shape := ⟨2, ![1, 2]⟩
abbrev S200000x2 : Shape := ⟨2, ![200000, 2]⟩
abbrev S1000x2 : Shape := ⟨2, ![1000, 2]⟩

abbrev nBuf : Space → Nat
  | .hbm => 92
  | .vmem => 20
  | .smem => 0
  | _ => 0

abbrev bufTy : (tb : Table) → Fin (tcTables nBuf tb) → BufTy
  | .hbm, ⟨0, _⟩ => ⟨S200000x165, .f32⟩
  | .hbm, ⟨1, _⟩ => ⟨S2x400000, .i32⟩
  | .hbm, ⟨2, _⟩ => ⟨S165x512, .f32⟩
  | .hbm, ⟨3, _⟩ => ⟨S165x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x2, .f32⟩
  | .hbm, ⟨9, _⟩ => ⟨S2, .f32⟩
  | .hbm, ⟨10, _⟩ => ⟨S1x400000, .i32⟩
  | .hbm, ⟨11, _⟩ => ⟨S400000, .i32⟩
  | .hbm, ⟨12, _⟩ => ⟨S1x400000, .i32⟩
  | .hbm, ⟨13, _⟩ => ⟨S400000, .i32⟩
  | .hbm, ⟨14, _⟩ => ⟨S_, .f32⟩
  | .hbm, ⟨15, _⟩ => ⟨S400000, .f32⟩
  | .hbm, ⟨16, _⟩ => ⟨S_, .f32⟩
  | .hbm, ⟨17, _⟩ => ⟨S200000, .f32⟩
  | .hbm, ⟨18, _⟩ => ⟨S400000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S_, .f32⟩
  | .hbm, ⟨24, _⟩ => ⟨S200000, .f32⟩
  | .hbm, ⟨25, _⟩ => ⟨S200000, .i1⟩
  | .hbm, ⟨26, _⟩ => ⟨S_, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S200000, .f32⟩
  | .hbm, ⟨31, _⟩ => ⟨S_, .f32⟩
  | .hbm, ⟨32, _⟩ => ⟨S_, .f32⟩
  | .hbm, ⟨33, _⟩ => ⟨S200000, .f32⟩
  | .hbm, ⟨34, _⟩ => ⟨S200000, .f32⟩
  | .hbm, ⟨35, _⟩ => ⟨S_, .i32⟩
  | .hbm, ⟨36, _⟩ => ⟨S400000, .i32⟩
  | .hbm, ⟨37, _⟩ => ⟨S400000, .i1⟩
  | .hbm, ⟨38, _⟩ => ⟨S_, .i32⟩
  | .hbm, ⟨39, _⟩ => ⟨S400000, .i32⟩
  | .hbm, ⟨40, _⟩ => ⟨S400000, .i32⟩
  | .hbm, ⟨41, _⟩ => ⟨S400000, .i32⟩
  | .hbm, ⟨42, _⟩ => ⟨S400000x1, .i32⟩
  | .hbm, ⟨43, _⟩ => ⟨S400000, .f32⟩
  | .hbm, ⟨44, _⟩ => ⟨S400000, .f32⟩
  | .hbm, ⟨45, _⟩ => ⟨S_, .i32⟩
  | .hbm, ⟨46, _⟩ => ⟨S400000, .i32⟩
  | .hbm, ⟨47, _⟩ => ⟨S400000, .i1⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S400000x1, .i32⟩
  | .hbm, ⟨53, _⟩ => ⟨S400000, .f32⟩
  | .hbm, ⟨54, _⟩ => ⟨S400000, .f32⟩
  | .hbm, ⟨55, _⟩ => ⟨S400000x1, .f32⟩
  | .hbm, ⟨56, _⟩ => ⟨S_, .i32⟩
  | .hbm, ⟨57, _⟩ => ⟨S400000, .i32⟩
  | .hbm, ⟨58, _⟩ => ⟨S400000, .i1⟩
  | .hbm, ⟨59, _⟩ => ⟨S_, .i32⟩
  | .hbm, ⟨60, _⟩ => ⟨S400000, .i32⟩
  | .hbm, ⟨61, _⟩ => ⟨S400000, .i32⟩
  | .hbm, ⟨62, _⟩ => ⟨S400000, .i32⟩
  | .hbm, ⟨63, _⟩ => ⟨S400000x1, .i32⟩
  | .hbm, ⟨64, _⟩ => ⟨S400000x165, .f32⟩
  | .hbm, ⟨65, _⟩ => ⟨S400000x165, .f32⟩
  | .hbm, ⟨66, _⟩ => ⟨S400000x165, .f32⟩
  | .hbm, ⟨67, _⟩ => ⟨S_, .f32⟩
  | .hbm, ⟨68, _⟩ => ⟨S200000x165, .f32⟩
  | .hbm, ⟨69, _⟩ => ⟨S400000x1, .i32⟩
  | .hbm, ⟨70, _⟩ => ⟨S200000x165, .f32⟩
  | .hbm, ⟨71, _⟩ => ⟨S1x512, .f32⟩
  | .hbm, ⟨72, _⟩ => ⟨S200000x512, .f32⟩
  | .hbm, ⟨73, _⟩ => ⟨S400000x1, .f32⟩
  | .hbm, ⟨74, _⟩ => ⟨S_, .i32⟩
  | .hbm, ⟨75, _⟩ => ⟨S400000, .i32⟩
  | .hbm, ⟨76, _⟩ => ⟨S400000, .i1⟩
  | .hbm, ⟨77, _⟩ => ⟨S_, .i32⟩
  | .hbm, ⟨78, _⟩ => ⟨S400000, .i32⟩
  | .hbm, ⟨79, _⟩ => ⟨S400000, .i32⟩
  | .hbm, ⟨80, _⟩ => ⟨S400000, .i32⟩
  | .hbm, ⟨81, _⟩ => ⟨S400000x1, .i32⟩
  | .hbm, ⟨82, _⟩ => ⟨S400000x512, .f32⟩
  | .hbm, ⟨83, _⟩ => ⟨S400000x512, .f32⟩
  | .hbm, ⟨84, _⟩ => ⟨S400000x512, .f32⟩
  | .hbm, ⟨85, _⟩ => ⟨S_, .f32⟩
  | .hbm, ⟨86, _⟩ => ⟨S200000x512, .f32⟩
  | .hbm, ⟨87, _⟩ => ⟨S400000x1, .i32⟩
  | .hbm, ⟨88, _⟩ => ⟨S200000x512, .f32⟩
  | .hbm, ⟨89, _⟩ => ⟨S1x512, .f32⟩
  | .hbm, ⟨90, _⟩ => ⟨S1x2, .f32⟩
  | .hbm, ⟨91, _⟩ => ⟨S200000x2, .f32⟩
  | .local _ .vmem, ⟨0, _⟩ => ⟨S1000x165, .f32⟩
  | .local _ .vmem, ⟨1, _⟩ => ⟨S1000x165, .f32⟩
  | .local _ .vmem, ⟨2, _⟩ => ⟨S1000x165, .f32⟩
  | .local _ .vmem, ⟨3, _⟩ => ⟨S1000x165, .f32⟩
  | .local _ .vmem, ⟨4, _⟩ => ⟨S165x512, .f32⟩
  | .local _ .vmem, ⟨5, _⟩ => ⟨S165x512, .f32⟩
  | .local _ .vmem, ⟨6, _⟩ => ⟨S1x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S512x2, .f32⟩
  | .local _ .vmem, ⟨17, _⟩ => ⟨S1x2, .f32⟩
  | .local _ .vmem, ⟨18, _⟩ => ⟨S1000x2, .f32⟩
  | .local _ .vmem, ⟨19, _⟩ => ⟨S1000x2, .f32⟩
  | _, _ => ⟨S200000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_c_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_c_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x165 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S165x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S165x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S200000 : S_.BroadcastsInDim S200000 (![] : Fin 0 → Fin S200000.rank)
  bcast_S400000_S400000x1_0 : S400000.BroadcastsInDim S400000x1 (![0] : Fin 1 → Fin S400000x1.rank)
  bcast_S400000x1_S400000x165_0_1 : S400000x1.BroadcastsInDim S400000x165 (![0, 1] : Fin 2 → Fin S400000x165.rank)
  bcast_S_S200000x165 : S_.BroadcastsInDim S200000x165 (![] : Fin 0 → Fin S200000x165.rank)
  shapeCasts_S512_S1x512 : S512.ShapeCasts S1x512
  inb_S1000x165_S1000x165_0_0 : ∀ a, (![0, 0] : Fin 2 → Nat) a + S1000x165.size a ≤ S1000x165.size a
  h_S1000x165 : 0 < S1000x165.numel
  bitsLt_bf16_f32 : FTy.bits .bf16 < FTy.bits .f32
  shapeCasts_S1000x165_S1000x165 : S1000x165.ShapeCasts S1000x165
  inb_S165x512_S165x512_0_0 : ∀ a, (![0, 0] : Fin 2 → Nat) a + S165x512.size a ≤ S165x512.size a
  h_S165x512 : 0 < S165x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  bcast_S400000x1_S400000x512_0_1 : S400000x1.BroadcastsInDim S400000x512 (![0, 1] : Fin 2 → Fin S400000x512.rank)
  bcast_S_S200000x512 : S_.BroadcastsInDim S200000x512 (![] : Fin 0 → Fin S200000x512.rank)
  shapeCasts_S2_S1x2 : S2.ShapeCasts S1x2
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  inb_S512x2_S512x2_0_0 : ∀ a, (![0, 0] : Fin 2 → Nat) a + S512x2.size a ≤ S512x2.size a
  h_S512x2 : 0 < S512x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  scatter_S200000_S400000x1_S400000_n_0_0_1_wf : ScatterDims.WF S200000 S400000x1 S400000 [] [0] [0] 1
  gather_S200000_S400000x1_S400000_n_0_n_n_0_1_1_wf : GatherDims.WF S200000 S400000x1 S400000 [] [0] [] [0] [] 1 ![1]
  gather_S200000x165_S400000x1_S400000x165_1_0_n_n_0_1_1165_wf : GatherDims.WF S200000x165 S400000x1 S400000x165 [1] [0] [] [0] [] 1 ![1, 165]
  scatter_S200000x165_S400000x1_S400000x165_1_0_0_1_wf : ScatterDims.WF S200000x165 S400000x1 S400000x165 [1] [0] [0] 1
  dot_S1000x165_S165x512_S1000x512_1_0_0_1_n_n_wf : DotDims.WF S1000x165 S165x512 S1000x512 [1] [0] [0] [1] [] []
  gather_S200000x512_S400000x1_S400000x512_1_0_n_n_0_1_1512_wf : GatherDims.WF S200000x512 S400000x1 S400000x512 [1] [0] [] [0] [] 1 ![1, 512]
  scatter_S200000x512_S400000x1_S400000x512_1_0_0_1_wf : ScatterDims.WF S200000x512 S400000x1 S400000x512 [1] [0] [0] 1
  dot_S1000x512_S512x512_S1000x512_1_0_0_1_n_n_wf : DotDims.WF S1000x512 S512x512 S1000x512 [1] [0] [0] [1] [] []
  dot_S1000x512_S512x2_S1000x2_1_0_0_1_n_n_wf : DotDims.WF S1000x512 S512x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x165.size a ≤ S200000x165.size a
  hwx0_0 : ∀ i : grid0.Coords, EltTy.bits .f32 = 32 ∨ (Rect.block (s := S200000x165) S1000x165.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x165.size a ≤ S200000x165.size a
  hwx0_1 : ∀ i : grid0.Coords, EltTy.bits .f32 = 32 ∨ (Rect.block (s := S200000x165) S1000x165.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S165x512.size a ≤ S165x512.size a
  hwx0_2 : ∀ i : grid0.Coords, EltTy.bits .f32 = 32 ∨ (Rect.block (s := S165x512) S165x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S165x512.size a ≤ S165x512.size a
  hwx0_3 : ∀ i : grid0.Coords, EltTy.bits .f32 = 32 ∨ (Rect.block (s := S165x512) S165x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S200000x512.size a
  hwx0_5 : ∀ i : grid0.Coords, EltTy.bits .f32 = 32 ∨ (Rect.block (s := S200000x512) S1000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S200000x512.size a
  hwx1_0 : ∀ i : grid1.Coords, EltTy.bits .f32 = 32 ∨ (Rect.block (s := S200000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S200000x512.size a
  hwx1_1 : ∀ i : grid1.Coords, EltTy.bits .f32 = 32 ∨ (Rect.block (s := S200000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x2.size a ≤ S512x2.size a
  hwx1_5 : ∀ i : grid1.Coords, EltTy.bits .f32 = 32 ∨ (Rect.block (s := S512x2) S512x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x2.size a ≤ S200000x2.size a
  hwx1_7 : ∀ i : grid1.Coords, EltTy.bits .f32 = 32 ∨ (Rect.block (s := S200000x2) S1000x2.size (cc1_transform_7 i) (hinb1_7 i)).WholeWords (EltTy.packing .f32)

variable [Facts₀]

def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def gather_S200000_S400000x1_S400000_n_0_n_n_0_1_1 : GatherDims S200000 S400000x1 S400000 where
  offsetDims := []
  collapsedSliceDims := [0]
  operandBatchingDims := []
  startIndicesBatchingDims := []
  startIndexMap := [0]
  indexVectorDim := 1
  sliceSizes := ![1]
  wf := gather_S200000_S400000x1_S400000_n_0_n_n_0_1_1_wf
def gather_S200000x165_S400000x1_S400000x165_1_0_n_n_0_1_1165 : GatherDims S200000x165 S400000x1 S400000x165 where
  offsetDims := [1]
  collapsedSliceDims := [0]
  operandBatchingDims := []
  startIndicesBatchingDims := []
  startIndexMap := [0]
  indexVectorDim := 1
  sliceSizes := ![1, 165]
  wf := gather_S200000x165_S400000x1_S400000x165_1_0_n_n_0_1_1165_wf
def scatter_S200000x165_S400000x1_S400000x165_1_0_0_1 : ScatterDims S200000x165 S400000x1 S400000x165 where
  updateWindowDims := [1]
  insertedWindowDims := [0]
  scatterDimsToOperandDims := [0]
  indexVectorDim := 1
  wf := scatter_S200000x165_S400000x1_S400000x165_1_0_0_1_wf
def dot_S1000x165_S165x512_S1000x512_1_0_0_1_n_n : DotDims S1000x165 S165x512 S1000x512 where
  lhsContracting := [1]
  rhsContracting := [0]
  lhsNonContracting := [0]
  rhsNonContracting := [1]
  lhsBatch := []
  rhsBatch := []
  wf := dot_S1000x165_S165x512_S1000x512_1_0_0_1_n_n_wf
def gather_S200000x512_S400000x1_S400000x512_1_0_n_n_0_1_1512 : GatherDims S200000x512 S400000x1 S400000x512 where
  offsetDims := [1]
  collapsedSliceDims := [0]
  operandBatchingDims := []
  startIndicesBatchingDims := []
  startIndexMap := [0]
  indexVectorDim := 1
  sliceSizes := ![1, 512]
  wf := gather_S200000x512_S400000x1_S400000x512_1_0_n_n_0_1_1512_wf
def scatter_S200000x512_S400000x1_S400000x512_1_0_0_1 : ScatterDims S200000x512 S400000x1 S400000x512 where
  updateWindowDims := [1]
  insertedWindowDims := [0]
  scatterDimsToOperandDims := [0]
  indexVectorDim := 1
  wf := scatter_S200000x512_S400000x1_S400000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x2_S1000x2_1_0_0_1_n_n : DotDims S1000x512 S512x2 S1000x2 where
  lhsContracting := [1]
  rhsContracting := [0]
  lhsNonContracting := [0]
  rhsNonContracting := [1]
  lhsBatch := []
  rhsBatch := []
  wf := dot_S1000x512_S512x2_S1000x2_1_0_0_1_n_n_wf

abbrev win0_0 : Pipeline.Window sig grid0 :=
  Pipeline.Window.ofSpec (Memref.whole main_arg0) S1000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S1000x165.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S165x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S165x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S512x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S1000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S200000x165 : Shape := ⟨2, ![200000, 165]⟩
abbrev S2x400000 : Shape := ⟨2, ![2, 400000]⟩
abbrev S165x512 : Shape := ⟨2, ![165, 512]⟩
abbrev S512 : Shape := ⟨1, ![512]⟩
abbrev S512x512 : Shape := ⟨2, ![512, 512]⟩
abbrev S512x2 : Shape := ⟨2, ![512, 2]⟩
abbrev S2 : Shape := ⟨1, ![2]⟩
abbrev S1x400000 : Shape := ⟨2, ![1, 400000]⟩
abbrev S400000 : Shape := ⟨1, ![400000]⟩
abbrev S_ : Shape := ⟨0, ![]⟩
abbrev S200000 : Shape := ⟨1, ![200000]⟩
abbrev S400000x1 : Shape := ⟨2, ![400000, 1]⟩
abbrev S200000x512 : Shape := ⟨2, ![200000, 512]⟩
abbrev S400000x165 : Shape := ⟨2, ![400000, 165]⟩
abbrev S1x512 : Shape := ⟨2, ![1, 512]⟩
abbrev S400000x512 : Shape := ⟨2, ![400000, 512]⟩
abbrev S200000x2 : Shape := ⟨2, ![200000, 2]⟩
abbrev S1x2 : Shape := ⟨2, ![1, 2]⟩

abbrev nBuf : Space → Nat
  | .hbm => 109
  | .vmem => 0
  | .smem => 0
  | _ => 0

abbrev bufTy : (tb : Table) → Fin (tcTables nBuf tb) → BufTy
  | .hbm, ⟨0, _⟩ => ⟨S200000x165, .f32⟩
  | .hbm, ⟨1, _⟩ => ⟨S2x400000, .i32⟩
  | .hbm, ⟨2, _⟩ => ⟨S165x512, .f32⟩
  | .hbm, ⟨3, _⟩ => ⟨S165x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x2, .f32⟩
  | .hbm, ⟨9, _⟩ => ⟨S2, .f32⟩
  | .hbm, ⟨10, _⟩ => ⟨S1x400000, .i32⟩
  | .hbm, ⟨11, _⟩ => ⟨S400000, .i32⟩
  | .hbm, ⟨12, _⟩ => ⟨S1x400000, .i32⟩
  | .hbm, ⟨13, _⟩ => ⟨S400000, .i32⟩
  | .hbm, ⟨14, _⟩ => ⟨S_, .f32⟩
  | .hbm, ⟨15, _⟩ => ⟨S400000, .f32⟩
  | .hbm, ⟨16, _⟩ => ⟨S_, .f32⟩
  | .hbm, ⟨17, _⟩ => ⟨S200000, .f32⟩
  | .hbm, ⟨18, _⟩ => ⟨S400000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S_, .f32⟩
  | .hbm, ⟨24, _⟩ => ⟨S200000, .f32⟩
  | .hbm, ⟨25, _⟩ => ⟨S200000, .i1⟩
  | .hbm, ⟨26, _⟩ => ⟨S_, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S200000, .f32⟩
  | .hbm, ⟨31, _⟩ => ⟨S_, .f32⟩
  | .hbm, ⟨32, _⟩ => ⟨S_, .f32⟩
  | .hbm, ⟨33, _⟩ => ⟨S200000, .f32⟩
  | .hbm, ⟨34, _⟩ => ⟨S200000, .f32⟩
  | .hbm, ⟨35, _⟩ => ⟨S_, .i32⟩
  | .hbm, ⟨36, _⟩ => ⟨S400000, .i32⟩
  | .hbm, ⟨37, _⟩ => ⟨S400000, .i1⟩
  | .hbm, ⟨38, _⟩ => ⟨S_, .i32⟩
  | .hbm, ⟨39, _⟩ => ⟨S400000, .i32⟩
  | .hbm, ⟨40, _⟩ => ⟨S400000, .i32⟩
  | .hbm, ⟨41, _⟩ => ⟨S400000, .i32⟩
  | .hbm, ⟨42, _⟩ => ⟨S400000x1, .i32⟩
  | .hbm, ⟨43, _⟩ => ⟨S400000, .f32⟩
  | .hbm, ⟨44, _⟩ => ⟨S400000, .f32⟩
  | .hbm, ⟨45, _⟩ => ⟨S_, .i32⟩
  | .hbm, ⟨46, _⟩ => ⟨S400000, .i32⟩
  | .hbm, ⟨47, _⟩ => ⟨S400000, .i1⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S400000x1, .i32⟩
  | .hbm, ⟨53, _⟩ => ⟨S400000, .f32⟩
  | .hbm, ⟨54, _⟩ => ⟨S400000, .f32⟩
  | .hbm, ⟨55, _⟩ => ⟨S200000x512, .f32⟩
  | .hbm, ⟨56, _⟩ => ⟨S400000x1, .f32⟩
  | .hbm, ⟨57, _⟩ => ⟨S_, .i32⟩
  | .hbm, ⟨58, _⟩ => ⟨S400000, .i32⟩
  | .hbm, ⟨59, _⟩ => ⟨S400000, .i1⟩
  | .hbm, ⟨60, _⟩ => ⟨S_, .i32⟩
  | .hbm, ⟨61, _⟩ => ⟨S400000, .i32⟩
  | .hbm, ⟨62, _⟩ => ⟨S400000, .i32⟩
  | .hbm, ⟨63, _⟩ => ⟨S400000, .i32⟩
  | .hbm, ⟨64, _⟩ => ⟨S400000x1, .i32⟩
  | .hbm, ⟨65, _⟩ => ⟨S400000x165, .f32⟩
  | .hbm, ⟨66, _⟩ => ⟨S400000x165, .f32⟩
  | .hbm, ⟨67, _⟩ => ⟨S400000x165, .f32⟩
  | .hbm, ⟨68, _⟩ => ⟨S_, .f32⟩
  | .hbm, ⟨69, _⟩ => ⟨S200000x165, .f32⟩
  | .hbm, ⟨70, _⟩ => ⟨S400000x1, .i32⟩
  | .hbm, ⟨71, _⟩ => ⟨S200000x165, .f32⟩
  | .hbm, ⟨72, _⟩ => ⟨S200000x512, .f32⟩
  | .hbm, ⟨73, _⟩ => ⟨S200000x512, .f32⟩
  | .hbm, ⟨74, _⟩ => ⟨S1x512, .f32⟩
  | .hbm, ⟨75, _⟩ => ⟨S200000x512, .f32⟩
  | .hbm, ⟨76, _⟩ => ⟨S200000x512, .f32⟩
  | .hbm, ⟨77, _⟩ => ⟨S_, .f32⟩
  | .hbm, ⟨78, _⟩ => ⟨S200000x512, .f32⟩
  | .hbm, ⟨79, _⟩ => ⟨S200000x512, .f32⟩
  | .hbm, ⟨80, _⟩ => ⟨S200000x512, .f32⟩
  | .hbm, ⟨81, _⟩ => ⟨S400000x1, .f32⟩
  | .hbm, ⟨82, _⟩ => ⟨S_, .i32⟩
  | .hbm, ⟨83, _⟩ => ⟨S400000, .i32⟩
  | .hbm, ⟨84, _⟩ => ⟨S400000, .i1⟩
  | .hbm, ⟨85, _⟩ => ⟨S_, .i32⟩
  | .hbm, ⟨86, _⟩ => ⟨S400000, .i32⟩
  | .hbm, ⟨87, _⟩ => ⟨S400000, .i32⟩
  | .hbm, ⟨88, _⟩ => ⟨S400000, .i32⟩
  | .hbm, ⟨89, _⟩ => ⟨S400000x1, .i32⟩
  | .hbm, ⟨90, _⟩ => ⟨S400000x512, .f32⟩
  | .hbm, ⟨91, _⟩ => ⟨S400000x512, .f32⟩
  | .hbm, ⟨92, _⟩ => ⟨S400000x512, .f32⟩
  | .hbm, ⟨93, _⟩ => ⟨S_, .f32⟩
  | .hbm, ⟨94, _⟩ => ⟨S200000x512, .f32⟩
  | .hbm, ⟨95, _⟩ => ⟨S400000x1, .i32⟩
  | .hbm, ⟨96, _⟩ => ⟨S200000x512, .f32⟩
  | .hbm, ⟨97, _⟩ => ⟨S200000x512, .f32⟩
  | .hbm, ⟨98, _⟩ => ⟨S200000x512, .f32⟩
  | .hbm, ⟨99, _⟩ => ⟨S1x512, .f32⟩
  | .hbm, ⟨100, _⟩ => ⟨S200000x512, .f32⟩
  | .hbm, ⟨101, _⟩ => ⟨S200000x512, .f32⟩
  | .hbm, ⟨102, _⟩ => ⟨S_, .f32⟩
  | .hbm, ⟨103, _⟩ => ⟨S200000x512, .f32⟩
  | .hbm, ⟨104, _⟩ => ⟨S200000x512, .f32⟩
  | .hbm, ⟨105, _⟩ => ⟨S200000x2, .f32⟩
  | .hbm, ⟨106, _⟩ => ⟨S1x2, .f32⟩
  | .hbm, ⟨107, _⟩ => ⟨S200000x2, .f32⟩
  | .hbm, ⟨108, _⟩ => ⟨S200000x2, .f32⟩
  | _, _ => ⟨S200000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call2_cst : Ref sig .tc := ⟨.hbm, 77, rfl⟩
abbrev main_call2_v0 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_c_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call3_cst : Ref sig .tc := ⟨.hbm, 102, rfl⟩
abbrev main_call3_v0 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S200000 : S_.BroadcastsInDim S200000 (![] : Fin 0 → Fin S200000.rank)
  bcast_S400000_S400000x1_0 : S400000.BroadcastsInDim S400000x1 (![0] : Fin 1 → Fin S400000x1.rank)
  bcast_S400000x1_S400000x165_0_1 : S400000x1.BroadcastsInDim S400000x165 (![0, 1] : Fin 2 → Fin S400000x165.rank)
  bcast_S_S200000x165 : S_.BroadcastsInDim S200000x165 (![] : Fin 0 → Fin S200000x165.rank)
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  bcast_S400000x1_S400000x512_0_1 : S400000x1.BroadcastsInDim S400000x512 (![0, 1] : Fin 2 → Fin S400000x512.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  scatter_S200000_S400000x1_S400000_n_0_0_1_wf : ScatterDims.WF S200000 S400000x1 S400000 [] [0] [0] 1
  gather_S200000_S400000x1_S400000_n_0_n_n_0_1_1_wf : GatherDims.WF S200000 S400000x1 S400000 [] [0] [] [0] [] 1 ![1]
  dot_S200000x165_S165x512_S200000x512_1_0_0_1_n_n_wf : DotDims.WF S200000x165 S165x512 S200000x512 [1] [0] [0] [1] [] []
  gather_S200000x165_S400000x1_S400000x165_1_0_n_n_0_1_1165_wf : GatherDims.WF S200000x165 S400000x1 S400000x165 [1] [0] [] [0] [] 1 ![1, 165]
  scatter_S200000x165_S400000x1_S400000x165_1_0_0_1_wf : ScatterDims.WF S200000x165 S400000x1 S400000x165 [1] [0] [0] 1
  dot_S200000x512_S512x512_S200000x512_1_0_0_1_n_n_wf : DotDims.WF S200000x512 S512x512 S200000x512 [1] [0] [0] [1] [] []
  gather_S200000x512_S400000x1_S400000x512_1_0_n_n_0_1_1512_wf : GatherDims.WF S200000x512 S400000x1 S400000x512 [1] [0] [] [0] [] 1 ![1, 512]
  scatter_S200000x512_S400000x1_S400000x512_1_0_0_1_wf : ScatterDims.WF S200000x512 S400000x1 S400000x512 [1] [0] [0] 1
  dot_S200000x512_S512x2_S200000x2_1_0_0_1_n_n_wf : DotDims.WF S200000x512 S512x2 S200000x2 [1] [0] [0] [1] [] []

variable [Facts₀]

def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def gather_S200000_S400000x1_S400000_n_0_n_n_0_1_1 : GatherDims S200000 S400000x1 S400000 where
  offsetDims := []
  collapsedSliceDims := [0]
  operandBatchingDims := []
  startIndicesBatchingDims := []
  startIndexMap := [0]
  indexVectorDim := 1
  sliceSizes := ![1]
  wf := gather_S200000_S400000x1_S400000_n_0_n_n_0_1_1_wf
def dot_S200000x165_S165x512_S200000x512_1_0_0_1_n_n : DotDims S200000x165 S165x512 S200000x512 where
  lhsContracting := [1]
  rhsContracting := [0]
  lhsNonContracting := [0]
  rhsNonContracting := [1]
  lhsBatch := []
  rhsBatch := []
  wf := dot_S200000x165_S165x512_S200000x512_1_0_0_1_n_n_wf
def gather_S200000x165_S400000x1_S400000x165_1_0_n_n_0_1_1165 : GatherDims S200000x165 S400000x1 S400000x165 where
  offsetDims := [1]
  collapsedSliceDims := [0]
  operandBatchingDims := []
  startIndicesBatchingDims := []
  startIndexMap := [0]
  indexVectorDim := 1
  sliceSizes := ![1, 165]
  wf := gather_S200000x165_S400000x1_S400000x165_1_0_n_n_0_1_1165_wf
def scatter_S200000x165_S400000x1_S400000x165_1_0_0_1 : ScatterDims S200000x165 S400000x1 S400000x165 where
  updateWindowDims := [1]
  insertedWindowDims := [0]
  scatterDimsToOperandDims := [0]
  indexVectorDim := 1
  wf := scatter_S200000x165_S400000x1_S400000x165_1_0_0_1_wf
def dot_S200000x512_S512x512_S200000x512_1_0_0_1_n_n : DotDims S200000x512 S512x512 S200000x512 where
  lhsContracting := [1]
  rhsContracting := [0]
  lhsNonContracting := [0]
  rhsNonContracting := [1]
  lhsBatch := []
  rhsBatch := []
  wf := dot_S200000x512_S512x512_S200000x512_1_0_0_1_n_n_wf
def gather_S200000x512_S400000x1_S400000x512_1_0_n_n_0_1_1512 : GatherDims S200000x512 S400000x1 S400000x512 where
  offsetDims := [1]
  collapsedSliceDims := [0]
  operandBatchingDims := []
  startIndicesBatchingDims := []
  startIndexMap := [0]
  indexVectorDim := 1
  sliceSizes := ![1, 512]
  wf := gather_S200000x512_S400000x1_S400000x512_1_0_n_n_0_1_1512_wf
def scatter_S200000x512_S400000x1_S400000x512_1_0_0_1 : ScatterDims S200000x512 S400000x1 S400000x512 where
  updateWindowDims := [1]
  insertedWindowDims := [0]
  scatterDimsToOperandDims := [0]
  indexVectorDim := 1
  wf := scatter_S200000x512_S400000x1_S400000x512_1_0_0_1_wf
def dot_S200000x512_S512x2_S200000x2_1_0_0_1_n_n : DotDims S200000x512 S512x2 S200000x2 where
  lhsContracting := [1]
  rhsContracting := [0]
  lhsNonContracting := [0]
  rhsNonContracting := [1]
  lhsBatch := []
  rhsBatch := []
  wf := dot_S200000x512_S512x2_S200000x2_1_0_0_1_n_n_wf

class Facts : Prop extends Facts₀ where

variable [Facts]
-- ==== Proof.LibBufCast.lean ====
/-
  A tensor value carried to its buffer's type and back is the value.

  A typed reference pairs a buffer with the fact that the buffer's type is the value's type; `toBuf` carries a value
  along that fact to the buffer's type and `ofBuf` carries it back. The round trip is the identity.
-/
import Idealize.ShloMosaic.Lib.StableHlo

namespace Cert.LibBufCast

open Idealize.ShloMosaic Idealize.ShloMosaic.StableHlo

/-- `ofBuf` after `toBuf` at the same typed reference is the identity. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Cert.LibBufCast
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibBiasReluRows.lean ====
/-
  A row of biases added to every row of an array, the positive part taken, and the product of the result with a
  matrix of weights: the dense half of a graph-convolution layer, on arrays of extended reals.

  For an array `a` of `R` rows and `K` columns, a one-row array `b` of `K` biases, weights `w` of `K` rows and
  `N` columns, and a one-row array `d` of `N` biases:
  * `reluRow a b` has entry `(r, k)` equal to `max (a (r, k) + b (0, k)) 0`;
  * `reluRowDense a b w` is the product rows by columns of `reluRow a b` with `w`: entry `(r, c)` is the sum over
    `k` of `max (a (r, k) + b (0, k)) 0 · w (k, c)`;
  * `reluRowHead a b w d` adds `d (0, c)` to that entry.

  Each of the three is computed row by row: row `r` of the result reads row `r` of `a` only, beside the whole of
  `b`, `w` and `d`. So a block of rows of `a` gives the same block of rows of the result (`…_rows`), which is
  what lets the map be computed one block of rows at a time. Two spellings of each map are identified with it: the one
  a vector unit computes from a block (casts of the block to its own shape, the bias row repeated along the rows, a
  maximum with the zero scalar, a narrowing of the format, the matrix unit's product into a zero accumulator) and the
  one array operations on whole arrays compute (a vector of biases laid out as one row and repeated, a maximum with an
  array of zeros, a general dot product). Nothing here needs an entry to be finite: sums, products and maxima of
  extended reals are formed, and no sum is rearranged against a product.
-/
import Idealize.ShloMosaic.Lib.Pipeline.Value
import Idealize.ShloMosaic.Lib.ValueIdx
import Idealize.ShloMosaic.Lib.ValueLayout
import Idealize.ShloMosaic.PureOps.Ideal.Laws
import proofs.«126151_j64364379898206_1_alg».proof.Proof.LibPlainProduct

noncomputable section

open scoped BigOperators

namespace Cert.BiasReluRows

open Idealize.ShloMosaic Idealize.ShloMosaic.ValueIdx Idealize.ShloMosaic.PlainProduct

variable {R B K N : ℕ}

/-- The zero of single precision, as the programs spell it. -/
abbrev zero32 : Ideal .f32 := FloatOps.ofBits .f32 0x00000000#32

/-- A vector of length `k` as the one-row array `[1, k]`. -/
def rowOf {k : ℕ} (b : FVec Ideal ⟨1, ![k]⟩ .f32) : FVec Ideal ⟨2, ![1, k]⟩ .f32 := fun i => b (ix1 (n := k) (i 1))

/-- The bias row added to every row, then the positive part: entry `(r, k)` is `max (a (r, k) + b (0, k)) 0`. -/
def reluRow (a : FVec Ideal ⟨2, ![R, K]⟩ .f32) (b : FVec Ideal ⟨2, ![1, K]⟩ .f32) : FVec Ideal ⟨2, ![R, K]⟩ .f32 :=
  fun j => max (a j + b (ix2 (n0 := 1) (n1 := K) 0 (j 1))) zero32

/-- `reluRow a b` times the weights: entry `(r, c)` is `∑ k, max (a (r, k) + b (0, k)) 0 · w (k, c)`. -/
def reluRowDense (a : FVec Ideal ⟨2, ![R, K]⟩ .f32) (b : FVec Ideal ⟨2, ![1, K]⟩ .f32) (w : FVec Ideal ⟨2, ![K, N]⟩ .f32) :
    FVec Ideal ⟨2, ![R, N]⟩ .f32 :=
  rowsByCols (reluRow a b) w

/-- … plus a second bias row: entry `(r, c)` is `∑ k, max (a (r, k) + b (0, k)) 0 · w (k, c) + d (0, c)`. -/
def reluRowHead (a : FVec Ideal ⟨2, ![R, K]⟩ .f32) (b : FVec Ideal ⟨2, ![1, K]⟩ .f32) (w : FVec Ideal ⟨2, ![K, N]⟩ .f32)
    (d : FVec Ideal ⟨2, ![1, N]⟩ .f32) : FVec Ideal ⟨2, ![R, N]⟩ .f32 :=
  fun j => rowsByCols (reluRow a b) w j + d (ix2 (n0 := 1) (n1 := N) 0 (j 1))

/-! ## What a vector unit computes from a block -/

/-- The block and the bias row cast to their own shapes, the row repeated along the rows and added, the maximum
    with the zero scalar repeated over the block: `reluRow`. -/
theorem block_reluRow (a : FVec Ideal ⟨2, ![R, K]⟩ .f32) (b : FVec Ideal ⟨2, ![1, K]⟩ .f32)
    (h0 : (⟨2, ![R, K]⟩ : Shape).ShapeCasts ⟨2, ![R, K]⟩) (h1 : (⟨2, ![1, K]⟩ : Shape).ShapeCasts ⟨2, ![1, K]⟩)
    (h2 : (⟨2, ![1, K]⟩ : Shape).Broadcasts ⟨2, ![R, K]⟩) :
    maximumf (addf (shapeCast ⟨2, ![R, K]⟩ a h0) (broadcastTo ⟨2, ![R, K]⟩ (shapeCast ⟨2, ![1, K]⟩ b h1) h2))
        (broadcast ⟨2, ![R, K]⟩ (Scalar.ofBits (F := Ideal) .f32 0x00000000#32)) = reluRow a b := by
  funext j
  obtain ⟨p, q, rfl⟩ : ∃ (p : Fin R) (q : Fin K), j = ix2 p q := ⟨j 0, j 1, eq_ix2 j⟩
  rw [shapeCast_self, shapeCast_self, maximumf_apply, addf_apply, broadcastTo_1b_ab_apply]
  rfl

/-- A matrix unit's product of two operands, their format narrowed (which changes nothing on the extended reals),
    into the zero accumulator: the product rows by columns. -/
theorem block_product (x : FVec Ideal ⟨2, ![R, K]⟩ .f32) (w : FVec Ideal ⟨2, ![K, N]⟩ .f32) (hb : FTy.bf16.bits < FTy.f32.bits) :
    matmul (DotDims.plain R K N) none (truncf .bf16 x hb) (truncf .bf16 w hb) (constant ⟨2, ![R, N]⟩ .f32 0x00000000#32)
      = rowsByCols x w :=
  matmul_zero_plain none (truncf .bf16 x hb) (truncf .bf16 w hb)

/-- The same product of `reluRow` of the block, as the vector unit spells it: `reluRowDense`. -/
theorem block_reluRowDense (a : FVec Ideal ⟨2, ![R, K]⟩ .f32) (b : FVec Ideal ⟨2, ![1, K]⟩ .f32) (w : FVec Ideal ⟨2, ![K, N]⟩ .f32)
    (h0 : (⟨2, ![R, K]⟩ : Shape).ShapeCasts ⟨2, ![R, K]⟩) (h1 : (⟨2, ![1, K]⟩ : Shape).ShapeCasts ⟨2, ![1, K]⟩)
    (h2 : (⟨2, ![1, K]⟩ : Shape).Broadcasts ⟨2, ![R, K]⟩) (hb : FTy.bf16.bits < FTy.f32.bits) :
    matmul (DotDims.plain R K N) none
        (truncf .bf16 (maximumf (addf (shapeCast ⟨2, ![R, K]⟩ a h0) (broadcastTo ⟨2, ![R, K]⟩ (shapeCast ⟨2, ![1, K]⟩ b h1) h2))
          (broadcast ⟨2, ![R, K]⟩ (Scalar.ofBits (F := Ideal) .f32 0x00000000#32))) hb)
        (truncf .bf16 w hb) (constant ⟨2, ![R, N]⟩ .f32 0x00000000#32)
      = reluRowDense a b w := by
  rw [block_reluRow]
  exact block_product (reluRow a b) w hb

/-- … with the second bias row, cast to its own shape and repeated along the rows, added: `reluRowHead`. -/
theorem block_reluRowHead (a : FVec Ideal ⟨2, ![R, K]⟩ .f32) (b : FVec Ideal ⟨2, ![1, K]⟩ .f32) (w : FVec Ideal ⟨2, ![K, N]⟩ .f32)
    (d : FVec Ideal ⟨2, ![1, N]⟩ .f32)
    (h0 : (⟨2, ![R, K]⟩ : Shape).ShapeCasts ⟨2, ![R, K]⟩) (h1 : (⟨2, ![1, K]⟩ : Shape).ShapeCasts ⟨2, ![1, K]⟩)
    (h2 : (⟨2, ![1, K]⟩ : Shape).Broadcasts ⟨2, ![R, K]⟩) (hb : FTy.bf16.bits < FTy.f32.bits)
    (h3 : (⟨2, ![1, N]⟩ : Shape).ShapeCasts ⟨2, ![1, N]⟩) (h4 : (⟨2, ![1, N]⟩ : Shape).Broadcasts ⟨2, ![R, N]⟩) :
    addf (matmul (DotDims.plain R K N) none
        (truncf .bf16 (maximumf (addf (shapeCast ⟨2, ![R, K]⟩ a h0) (broadcastTo ⟨2, ![R, K]⟩ (shapeCast ⟨2, ![1, K]⟩ b h1) h2))
          (broadcast ⟨2, ![R, K]⟩ (Scalar.ofBits (F := Ideal) .f32 0x00000000#32))) hb)
        (truncf .bf16 w hb) (constant ⟨2, ![R, N]⟩ .f32 0x00000000#32))
      (broadcastTo ⟨2, ![R, N]⟩ (shapeCast ⟨2, ![1, N]⟩ d h3) h4)
      = reluRowHead a b w d := by
  rw [block_reluRowDense]
  funext j
  obtain ⟨p, q, rfl⟩ : ∃ (p : Fin R) (q : Fin N), j = ix2 p q := ⟨j 0, j 1, eq_ix2 j⟩
  rw [shapeCast_self, addf_apply, broadcastTo_1b_ab_apply]
  rfl

/-! ## Row blocks -/

section Rows

variable (e : Fin B → Fin R)

/-- Rows `e r` of `reluRow a b` are `reluRow` of rows `e r` of `a`. -/
theorem reluRow_rows (a : FVec Ideal ⟨2, ![R, K]⟩ .f32) (b : FVec Ideal ⟨2, ![1, K]⟩ .f32) (ab : FVec Ideal ⟨2, ![B, K]⟩ .f32)
    (ha : ∀ (r : Fin B) (k : Fin K), ab (ix2 (n0 := B) (n1 := K) r k) = a (ix2 (n0 := R) (n1 := K) (e r) k))
    (r : Fin B) (k : Fin K) :
    reluRow ab b (ix2 (n0 := B) (n1 := K) r k) = reluRow a b (ix2 (n0 := R) (n1 := K) (e r) k) :=
  congrArg (fun v => max (v + b (ix2 (n0 := 1) (n1 := K) 0 k)) zero32) (ha r k)

/-- Rows `e r` of `reluRowDense a b w` are `reluRowDense` of rows `e r` of `a`. -/
theorem reluRowDense_rows (a : FVec Ideal ⟨2, ![R, K]⟩ .f32) (b : FVec Ideal ⟨2, ![1, K]⟩ .f32) (w : FVec Ideal ⟨2, ![K, N]⟩ .f32)
    (ab : FVec Ideal ⟨2, ![B, K]⟩ .f32)
    (ha : ∀ (r : Fin B) (k : Fin K), ab (ix2 (n0 := B) (n1 := K) r k) = a (ix2 (n0 := R) (n1 := K) (e r) k))
    (j : (⟨2, ![B, N]⟩ : Shape).Idx) :
    reluRowDense ab b w j = reluRowDense a b w (ix2 (n0 := R) (n1 := N) (e (j 0)) (j 1)) :=
  rowsByCols_rows (reluRow a b) w (reluRow ab b) e (reluRow_rows e a b ab ha) j

/-- Rows `e r` of `reluRowHead a b w d` are `reluRowHead` of rows `e r` of `a`. -/
theorem reluRowHead_rows (a : FVec Ideal ⟨2, ![R, K]⟩ .f32) (b : FVec Ideal ⟨2, ![1, K]⟩ .f32) (w : FVec Ideal ⟨2, ![K, N]⟩ .f32)
    (d : FVec Ideal ⟨2, ![1, N]⟩ .f32) (ab : FVec Ideal ⟨2, ![B, K]⟩ .f32)
    (ha : ∀ (r : Fin B) (k : Fin K), ab (ix2 (n0 := B) (n1 := K) r k) = a (ix2 (n0 := R) (n1 := K) (e r) k))
    (j : (⟨2, ![B, N]⟩ : Shape).Idx) :
    reluRowHead ab b w d j = reluRowHead a b w d (ix2 (n0 := R) (n1 := N) (e (j 0)) (j 1)) :=
  congrArg (· + d (ix2 (n0 := 1) (n1 := N) 0 (j 1))) (reluRowDense_rows e a b w ab ha j)

end Rows

/-! ## What array operations on whole arrays compute -/

/-- A vector cast to one row is `rowOf` of it. -/
theorem cast_rowOf {k : ℕ} (b : FVec Ideal ⟨1, ![k]⟩ .f32) (h : (⟨1, ![k]⟩ : Shape).ShapeCasts ⟨2, ![1, k]⟩) :
    shapeCast ⟨2, ![1, k]⟩ b h = rowOf b := by
  funext j
  obtain ⟨u, q, rfl⟩ : ∃ (u : Fin 1) (q : Fin k), j = ix2 u q := ⟨j 0, j 1, eq_ix2 j⟩
  exact shapeCast_a_1a_apply b h u q

/-- A vector laid out along the second axis of a one-row array is `rowOf` of it. -/
theorem bcast_rowOf {k : ℕ} (b : FVec Ideal ⟨1, ![k]⟩ .f32) (h : (⟨1, ![k]⟩ : Shape).BroadcastsInDim ⟨2, ![1, k]⟩ ![1]) :
    broadcastInDim ⟨2, ![1, k]⟩ ![1] h b = rowOf b := by
  funext j
  obtain ⟨u, q, rfl⟩ : ∃ (u : Fin 1) (q : Fin k), j = ix2 u q := ⟨j 0, j 1, eq_ix2 j⟩
  refine broadcastInDim_apply _ h b (ix2 u q) (ix1 q) fun ax => ?_
  match ax with
  | ⟨0, _⟩ =>
    show q.val = if k = 1 then 0 else q.val
    split
    · have := q.isLt; omega
    · rfl

/-- A one-row array repeated over `r` rows reads, at `(p, q)`, its entry `(0, q)`. -/
theorem bcast_rows_apply {α : Type} {r k : ℕ} (v : (⟨2, ![1, k]⟩ : Shape).Idx → α)
    (h : (⟨2, ![1, k]⟩ : Shape).BroadcastsInDim ⟨2, ![r, k]⟩ ![0, 1]) (p : Fin r) (q : Fin k) :
    broadcastInDim ⟨2, ![r, k]⟩ ![0, 1] h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if k = 1 then 0 else q.val
    split
    · have := q.isLt; omega
    · rfl

/-- The bias row repeated over the rows and added, the maximum with the array of zeros: `reluRow`. -/
theorem host_reluRow (a : FVec Ideal ⟨2, ![R, K]⟩ .f32) (b : FVec Ideal ⟨2, ![1, K]⟩ .f32)
    (h2 : (⟨2, ![1, K]⟩ : Shape).BroadcastsInDim ⟨2, ![R, K]⟩ ![0, 1])
    (h0 : (⟨0, ![]⟩ : Shape).BroadcastsInDim ⟨2, ![R, K]⟩ ![]) :
    maximumf (addf a (broadcastInDim ⟨2, ![R, K]⟩ ![0, 1] h2 b))
        (broadcastInDim ⟨2, ![R, K]⟩ ![] h0 (constant (F := Ideal) ⟨0, ![]⟩ .f32 0x00000000#32)) = reluRow a b := by
  funext j
  obtain ⟨p, q, rfl⟩ : ∃ (p : Fin R) (q : Fin K), j = ix2 p q := ⟨j 0, j 1, eq_ix2 j⟩
  rw [maximumf_apply, addf_apply, bcast_rows_apply,
    broadcastInDim_apply _ h0 (constant (F := Ideal) ⟨0, ![]⟩ .f32 0x00000000#32) (ix2 p q) ix0 (fun ax => ax.elim0)]
  rfl

/-- The general dot product of that with the weights: `reluRowDense`. -/
theorem host_reluRowDense (a : FVec Ideal ⟨2, ![R, K]⟩ .f32) (b : FVec Ideal ⟨2, ![1, K]⟩ .f32) (w : FVec Ideal ⟨2, ![K, N]⟩ .f32)
    (h2 : (⟨2, ![1, K]⟩ : Shape).BroadcastsInDim ⟨2, ![R, K]⟩ ![0, 1])
    (h0 : (⟨0, ![]⟩ : Shape).BroadcastsInDim ⟨2, ![R, K]⟩ ![]) :
    Host.dotGeneral (DotDims.plain R K N) none
        (maximumf (addf a (broadcastInDim ⟨2, ![R, K]⟩ ![0, 1] h2 b))
          (broadcastInDim ⟨2, ![R, K]⟩ ![] h0 (constant (F := Ideal) ⟨0, ![]⟩ .f32 0x00000000#32))) w
      = reluRowDense a b w := by
  rw [host_reluRow]
  exact dotGeneral_plain none .single (reluRow a b) w

/-- … with the second bias row repeated over the rows and added: `reluRowHead`. -/
theorem host_reluRowHead (a : FVec Ideal ⟨2, ![R, K]⟩ .f32) (b : FVec Ideal ⟨2, ![1, K]⟩ .f32) (w : FVec Ideal ⟨2, ![K, N]⟩ .f32)
    (d : FVec Ideal ⟨2, ![1, N]⟩ .f32)
    (h2 : (⟨2, ![1, K]⟩ : Shape).BroadcastsInDim ⟨2, ![R, K]⟩ ![0, 1])
    (h0 : (⟨0, ![]⟩ : Shape).BroadcastsInDim ⟨2, ![R, K]⟩ ![])
    (h4 : (⟨2, ![1, N]⟩ : Shape).BroadcastsInDim ⟨2, ![R, N]⟩ ![0, 1]) :
    addf (Host.dotGeneral (DotDims.plain R K N) none
        (maximumf (addf a (broadcastInDim ⟨2, ![R, K]⟩ ![0, 1] h2 b))
          (broadcastInDim ⟨2, ![R, K]⟩ ![] h0 (constant (F := Ideal) ⟨0, ![]⟩ .f32 0x00000000#32))) w)
      (broadcastInDim ⟨2, ![R, N]⟩ ![0, 1] h4 d)
      = reluRowHead a b w d := by
  rw [host_reluRowDense]
  funext j
  obtain ⟨p, q, rfl⟩ : ∃ (p : Fin R) (q : Fin N), j = ix2 p q := ⟨j 0, j 1, eq_ix2 j⟩
  rw [addf_apply, bcast_rows_apply]
  rfl

end Cert.BiasReluRows

end
-- ==== Proof.LibChebLayer.lean ====
/-
  A layer that adds two products and a row of biases and takes the positive part, and the same layer followed by a
  further product and a second row of biases, on arrays of extended reals.

  For arrays `x` and `p` of `R` rows and `K` columns, weights `w0` and `w1` of `K` rows and `N` columns, and a
  one-row array `b` of `N` biases:
  * `twoProducts x p w0 w1` has entry `(r, c)` equal to `∑ k, x (r, k) · w0 (k, c) + ∑ k, p (r, k) · w1 (k, c)`;
  * `layer x p w0 w1 b` has entry `(r, c)` equal to `max (twoProducts x p w0 w1 (r, c) + b (0, c)) 0`;
  * `layerHead x p w0 w1 b wl d`, for weights `wl` of `N` rows and `C` columns and a one-row array `d` of `C`
    biases, has entry `(r, c)` equal to `∑ n, layer x p w0 w1 b (r, n) · wl (n, c) + d (0, c)`.

  Row `r` of each result reads row `r` of `x` and of `p` only, beside the whole of the weights and biases. So a
  block of rows of `x` and the same block of rows of `p` give that block of rows of the result (`…_rows`): the maps
  can be computed one block of rows at a time. Two spellings of each map are identified with it: the one a vector unit
  computes from a block (formats narrowed, matrix-unit products into zero accumulators, the bias row repeated along the
  rows, a maximum with the zero scalar) and the one array operations on whole arrays compute (general dot products, the
  bias row repeated, a maximum with an array of zeros). Nothing here needs an entry to be finite: sums, products and
  maxima of extended reals are formed, each side forms them in the same order, and no sum is rearranged against a
  product.
-/
import Idealize.ShloMosaic.Lib.Pipeline.Value
import Idealize.ShloMosaic.Lib.ValueIdx
import Idealize.ShloMosaic.Lib.ValueLayout
import Idealize.ShloMosaic.PureOps.Ideal.Laws
import proofs.«126151_j64364379898206_1_alg».proof.Proof.LibPlainProduct
import proofs.«126151_j64364379898206_1_alg».proof.Proof.LibBiasReluRows

noncomputable section

open scoped BigOperators

namespace Cert.ChebLayer

open Idealize.ShloMosaic Idealize.ShloMosaic.ValueIdx Idealize.ShloMosaic.PlainProduct Cert.BiasReluRows

variable {R B K N C : ℕ}

/-- The two products added: entry `(r, c)` is `∑ k, x (r, k) · w0 (k, c) + ∑ k, p (r, k) · w1 (k, c)`. -/
def twoProducts (x p : FVec Ideal ⟨2, ![R, K]⟩ .f32) (w0 w1 : FVec Ideal ⟨2, ![K, N]⟩ .f32) : FVec Ideal ⟨2, ![R, N]⟩ .f32 :=
  fun j => rowsByCols x w0 j + rowsByCols p w1 j

/-- The bias row added to the two products, then the positive part. -/
def layer (x p : FVec Ideal ⟨2, ![R, K]⟩ .f32) (w0 w1 : FVec Ideal ⟨2, ![K, N]⟩ .f32) (b : FVec Ideal ⟨2, ![1, N]⟩ .f32) :
    FVec Ideal ⟨2, ![R, N]⟩ .f32 :=
  reluRow (twoProducts x p w0 w1) b

/-- The layer, then its product with `wl` and the second bias row. -/
def layerHead (x p : FVec Ideal ⟨2, ![R, K]⟩ .f32) (w0 w1 : FVec Ideal ⟨2, ![K, N]⟩ .f32) (b : FVec Ideal ⟨2, ![1, N]⟩ .f32)
    (wl : FVec Ideal ⟨2, ![N, C]⟩ .f32) (d : FVec Ideal ⟨2, ![1, C]⟩ .f32) : FVec Ideal ⟨2, ![R, C]⟩ .f32 :=
  reluRowHead (twoProducts x p w0 w1) b wl d

/-! ## What a vector unit computes from a block -/

/-- Two matrix-unit products into zero accumulators, their operands' formats narrowed, added. -/
theorem block_twoProducts (x p : FVec Ideal ⟨2, ![R, K]⟩ .f32) (w0 w1 : FVec Ideal ⟨2, ![K, N]⟩ .f32)
    (hb : FTy.bf16.bits < FTy.f32.bits) :
    addf (matmul (DotDims.plain R K N) none (truncf .bf16 x hb) (truncf .bf16 w0 hb) (constant ⟨2, ![R, N]⟩ .f32 0x00000000#32))
        (matmul (DotDims.plain R K N) none (truncf .bf16 p hb) (truncf .bf16 w1 hb) (constant ⟨2, ![R, N]⟩ .f32 0x00000000#32))
      = twoProducts x p w0 w1 := by
  rw [block_product, block_product]
  rfl

/-- … the bias row cast to its own shape and repeated along the rows, added; the maximum with the zero scalar. -/
theorem block_layer (x p : FVec Ideal ⟨2, ![R, K]⟩ .f32) (w0 w1 : FVec Ideal ⟨2, ![K, N]⟩ .f32) (b : FVec Ideal ⟨2, ![1, N]⟩ .f32)
    (h1 : (⟨2, ![1, N]⟩ : Shape).ShapeCasts ⟨2, ![1, N]⟩) (h2 : (⟨2, ![1, N]⟩ : Shape).Broadcasts ⟨2, ![R, N]⟩)
    (hb : FTy.bf16.bits < FTy.f32.bits) :
    maximumf
        (addf
          (addf (matmul (DotDims.plain R K N) none (truncf .bf16 x hb) (truncf .bf16 w0 hb) (constant ⟨2, ![R, N]⟩ .f32 0x00000000#32))
            (matmul (DotDims.plain R K N) none (truncf .bf16 p hb) (truncf .bf16 w1 hb) (constant ⟨2, ![R, N]⟩ .f32 0x00000000#32)))
          (broadcastTo ⟨2, ![R, N]⟩ (shapeCast ⟨2, ![1, N]⟩ b h1) h2))
        (broadcast ⟨2, ![R, N]⟩ (Scalar.ofBits (F := Ideal) .f32 0x00000000#32)) = layer x p w0 w1 b := by
  rw [block_twoProducts]
  funext j
  obtain ⟨r, q, rfl⟩ : ∃ (r : Fin R) (q : Fin N), j = ix2 r q := ⟨j 0, j 1, eq_ix2 j⟩
  rw [shapeCast_self, maximumf_apply, addf_apply, broadcastTo_1b_ab_apply]
  rfl

/-- … then the matrix unit's product of that with `wl`, and the second bias row added. -/
theorem block_layerHead (x p : FVec Ideal ⟨2, ![R, K]⟩ .f32) (w0 w1 : FVec Ideal ⟨2, ![K, N]⟩ .f32) (b : FVec Ideal ⟨2, ![1, N]⟩ .f32)
    (wl : FVec Ideal ⟨2, ![N, C]⟩ .f32) (d : FVec Ideal ⟨2, ![1, C]⟩ .f32)
    (h1 : (⟨2, ![1, N]⟩ : Shape).ShapeCasts ⟨2, ![1, N]⟩) (h2 : (⟨2, ![1, N]⟩ : Shape).Broadcasts ⟨2, ![R, N]⟩)
    (hb : FTy.bf16.bits < FTy.f32.bits)
    (h3 : (⟨2, ![1, C]⟩ : Shape).ShapeCasts ⟨2, ![1, C]⟩) (h4 : (⟨2, ![1, C]⟩ : Shape).Broadcasts ⟨2, ![R, C]⟩) :
    addf
        (matmul (DotDims.plain R N C) none
          (truncf .bf16
            (maximumf
              (addf
                (addf (matmul (DotDims.plain R K N) none (truncf .bf16 x hb) (truncf .bf16 w0 hb) (constant ⟨2, ![R, N]⟩ .f32 0x00000000#32))
                  (matmul (DotDims.plain R K N) none (truncf .bf16 p hb) (truncf .bf16 w1 hb) (constant ⟨2, ![R, N]⟩ .f32 0x00000000#32)))
                (broadcastTo ⟨2, ![R, N]⟩ (shapeCast ⟨2, ![1, N]⟩ b h1) h2))
              (broadcast ⟨2, ![R, N]⟩ (Scalar.ofBits (F := Ideal) .f32 0x00000000#32))) hb)
          (truncf .bf16 wl hb) (constant ⟨2, ![R, C]⟩ .f32 0x00000000#32))
        (broadcastTo ⟨2, ![R, C]⟩ (shapeCast ⟨2, ![1, C]⟩ d h3) h4)
      = layerHead x p w0 w1 b wl d := by
  rw [block_layer, block_product]
  funext j
  obtain ⟨r, q, rfl⟩ : ∃ (r : Fin R) (q : Fin C), j = ix2 r q := ⟨j 0, j 1, eq_ix2 j⟩
  rw [shapeCast_self, addf_apply, broadcastTo_1b_ab_apply]
  rfl

/-! ## Row blocks -/

section Rows

variable (e : Fin B → Fin R)

/-- Rows `e r` of the two products added are the two products of rows `e r` of `x` and of `p`. -/
theorem twoProducts_rows (x p : FVec Ideal ⟨2, ![R, K]⟩ .f32) (w0 w1 : FVec Ideal ⟨2, ![K, N]⟩ .f32)
    (xb pb : FVec Ideal ⟨2, ![B, K]⟩ .f32)
    (hx : ∀ (r : Fin B) (k : Fin K), xb (ix2 (n0 := B) (n1 := K) r k) = x (ix2 (n0 := R) (n1 := K) (e r) k))
    (hp : ∀ (r : Fin B) (k : Fin K), pb (ix2 (n0 := B) (n1 := K) r k) = p (ix2 (n0 := R) (n1 := K) (e r) k))
    (r : Fin B) (q : Fin N) :
    twoProducts xb pb w0 w1 (ix2 (n0 := B) (n1 := N) r q) = twoProducts x p w0 w1 (ix2 (n0 := R) (n1 := N) (e r) q) :=
  congrArg₂ (· + ·) (rowsByCols_rows x w0 xb e hx (ix2 r q)) (rowsByCols_rows p w1 pb e hp (ix2 r q))

/-- Rows `e r` of `layer x p w0 w1 b` are `layer` of rows `e r` of `x` and of `p`. -/
theorem layer_rows (x p : FVec Ideal ⟨2, ![R, K]⟩ .f32) (w0 w1 : FVec Ideal ⟨2, ![K, N]⟩ .f32) (b : FVec Ideal ⟨2, ![1, N]⟩ .f32)
    (xb pb : FVec Ideal ⟨2, ![B, K]⟩ .f32)
    (hx : ∀ (r : Fin B) (k : Fin K), xb (ix2 (n0 := B) (n1 := K) r k) = x (ix2 (n0 := R) (n1 := K) (e r) k))
    (hp : ∀ (r : Fin B) (k : Fin K), pb (ix2 (n0 := B) (n1 := K) r k) = p (ix2 (n0 := R) (n1 := K) (e r) k))
    (r : Fin B) (q : Fin N) :
    layer xb pb w0 w1 b (ix2 (n0 := B) (n1 := N) r q) = layer x p w0 w1 b (ix2 (n0 := R) (n1 := N) (e r) q) :=
  reluRow_rows e (twoProducts x p w0 w1) b (twoProducts xb pb w0 w1) (twoProducts_rows e x p w0 w1 xb pb hx hp) r q

/-- Rows `e r` of `layerHead x p w0 w1 b wl d` are `layerHead` of rows `e r` of `x` and of `p`. -/
theorem layerHead_rows (x p : FVec Ideal ⟨2, ![R, K]⟩ .f32) (w0 w1 : FVec Ideal ⟨2, ![K, N]⟩ .f32) (b : FVec Ideal ⟨2, ![1, N]⟩ .f32)
    (wl : FVec Ideal ⟨2, ![N, C]⟩ .f32) (d : FVec Ideal ⟨2, ![1, C]⟩ .f32)
    (xb pb : FVec Ideal ⟨2, ![B, K]⟩ .f32)
    (hx : ∀ (r : Fin B) (k : Fin K), xb (ix2 (n0 := B) (n1 := K) r k) = x (ix2 (n0 := R) (n1 := K) (e r) k))
    (hp : ∀ (r : Fin B) (k : Fin K), pb (ix2 (n0 := B) (n1 := K) r k) = p (ix2 (n0 := R) (n1 := K) (e r) k))
    (j : (⟨2, ![B, C]⟩ : Shape).Idx) :
    layerHead xb pb w0 w1 b wl d j = layerHead x p w0 w1 b wl d (ix2 (n0 := R) (n1 := C) (e (j 0)) (j 1)) :=
  reluRowHead_rows e (twoProducts x p w0 w1) b wl d (twoProducts xb pb w0 w1) (twoProducts_rows e x p w0 w1 xb pb hx hp) j

end Rows

/-! ## What array operations on whole arrays compute -/

/-- Two general dot products added. -/
theorem host_twoProducts (x p : FVec Ideal ⟨2, ![R, K]⟩ .f32) (w0 w1 : FVec Ideal ⟨2, ![K, N]⟩ .f32) :
    addf (Host.dotGeneral (DotDims.plain R K N) none x w0) (Host.dotGeneral (DotDims.plain R K N) none p w1)
      = twoProducts x p w0 w1 := by
  rw [show Host.dotGeneral (DotDims.plain R K N) none x w0 = rowsByCols x w0 from dotGeneral_plain none .single x w0,
    show Host.dotGeneral (DotDims.plain R K N) none p w1 = rowsByCols p w1 from dotGeneral_plain none .single p w1]
  rfl

/-- … the bias row repeated over the rows and added, the maximum with the array of zeros. -/
theorem host_layer (x p : FVec Ideal ⟨2, ![R, K]⟩ .f32) (w0 w1 : FVec Ideal ⟨2, ![K, N]⟩ .f32) (b : FVec Ideal ⟨2, ![1, N]⟩ .f32)
    (h2 : (⟨2, ![1, N]⟩ : Shape).BroadcastsInDim ⟨2, ![R, N]⟩ ![0, 1])
    (h0 : (⟨0, ![]⟩ : Shape).BroadcastsInDim ⟨2, ![R, N]⟩ ![]) :
    maximumf
        (addf (addf (Host.dotGeneral (DotDims.plain R K N) none x w0) (Host.dotGeneral (DotDims.plain R K N) none p w1))
          (broadcastInDim ⟨2, ![R, N]⟩ ![0, 1] h2 b))
        (broadcastInDim ⟨2, ![R, N]⟩ ![] h0 (constant (F := Ideal) ⟨0, ![]⟩ .f32 0x00000000#32)) = layer x p w0 w1 b := by
  rw [host_twoProducts]
  exact host_reluRow (twoProducts x p w0 w1) b h2 h0

/-- … then the general dot product of that with `wl`, and the second bias row repeated over the rows and added. -/
theorem host_layerHead (x p : FVec Ideal ⟨2, ![R, K]⟩ .f32) (w0 w1 : FVec Ideal ⟨2, ![K, N]⟩ .f32) (b : FVec Ideal ⟨2, ![1, N]⟩ .f32)
    (wl : FVec Ideal ⟨2, ![N, C]⟩ .f32) (d : FVec Ideal ⟨2, ![1, C]⟩ .f32)
    (h2 : (⟨2, ![1, N]⟩ : Shape).BroadcastsInDim ⟨2, ![R, N]⟩ ![0, 1])
    (h0 : (⟨0, ![]⟩ : Shape).BroadcastsInDim ⟨2, ![R, N]⟩ ![])
    (h4 : (⟨2, ![1, C]⟩ : Shape).BroadcastsInDim ⟨2, ![R, C]⟩ ![0, 1]) :
    addf
        (Host.dotGeneral (DotDims.plain R N C) none
          (maximumf
            (addf (addf (Host.dotGeneral (DotDims.plain R K N) none x w0) (Host.dotGeneral (DotDims.plain R K N) none p w1))
              (broadcastInDim ⟨2, ![R, N]⟩ ![0, 1] h2 b))
            (broadcastInDim ⟨2, ![R, N]⟩ ![] h0 (constant (F := Ideal) ⟨0, ![]⟩ .f32 0x00000000#32))) wl)
        (broadcastInDim ⟨2, ![R, C]⟩ ![0, 1] h4 d)
      = layerHead x p w0 w1 b wl d := by
  rw [host_twoProducts]
  exact host_reluRowHead (twoProducts x p w0 w1) b wl d h2 h0 h4

end Cert.ChebLayer

end
-- ==== Proof.RefSpec.lean ====
/-
  The function both programs compute, on arrays of extended reals.

  A graph on 200000 nodes is given by an array of 400000 edges: row 0 of the edge array holds each edge's source node,
  row 1 its destination node. From the edges alone:
  * `deg` counts, for each node, the edges that leave it (a sum of ones scattered to the edges' sources);
  * `dis` is `deg` to the power -1/2 where `deg` is positive, and 0 elsewhere;
  * `edgeW` gives edge `s → d` the weight `-dis s · dis d`.
  `prop165` and `prop512` apply these weights to an array of node rows: every edge `s → d` takes row `s`, scales it
  by the edge's weight, and adds it into row `d` of an array of zeros (165 and 512 columns).
  The network is two layers and a head: `hidden` is the positive part of `x · W1_0 + prop165 x · W1_1 + b1`, and `net`
  is `relu (h · W2_0 + prop512 h · W2_1 + b2) · Wl + bl` at `h = hidden` (LibChebLayer.lean's `layer` and `layerHead`).

  The operations on the edges and the scattering and gathering of rows are spelt here exactly as the array operations
  of the reference program spell them, over that program's dimension records; both programs apply the same operations
  to the same arrays, so nothing about them is needed beyond their spelling. `hostHidden` and `hostNet` are the
  reference program's spelling of the two layers on whole arrays, and `hostNet_eq` identifies it with `net`.
-/
import proofs.«126151_j64364379898206_1_alg».proof.Proof.Gen.ReferenceIdeal
import proofs.«126151_j64364379898206_1_alg».proof.Proof.LibChebLayer

noncomputable section

namespace Cert.RefSpec

open Cert.ReferenceIdeal Cert.ReferenceIdeal.Gen Cert.ChebLayer Cert.BiasReluRows
open Idealize.ShloMosaic Idealize.ShloMosaic.TcCoe

/-- Each edge's source node: row 0 of the edge array. -/
def srcOf (e : IVec S2x400000 32) : IVec S400000 32 :=
  shapeCast S400000 (extractStridedSlice S1x400000 ![0, 0] e slices_S2x400000_S1x400000_0_0) shapeCasts_S1x400000_S400000

/-- Each edge's destination node: row 1 of the edge array. -/
def dstOf (e : IVec S2x400000 32) : IVec S400000 32 :=
  shapeCast S400000 (extractStridedSlice S1x400000 ![1, 0] e slices_S2x400000_S1x400000_1_0) shapeCasts_S1x400000_S400000

/-- A negative node number counts from the end: the number of nodes is added to it. -/
def wrap (v : IVec S400000 32) : IVec S400000 32 :=
  select (cmpi .slt v (broadcastInDim S400000 ![] bcast_S_S400000 (constantI S_ 32 0#32)))
    (addi v (broadcastInDim S400000 ![] bcast_S_S400000 (constantI S_ 32 200000#32))) v

/-- The number of edges leaving each node: ones added into an array of zeros at the edges' sources. -/
def deg (e : IVec S2x400000 32) : FVec Ideal S200000 .f32 :=
  Host.scatterAdd scatter_S200000_S400000x1_S400000_n_0_0_1
    (broadcastInDim S200000 ![] bcast_S_S200000 (constant S_ .f32 0x00000000#32))
    (broadcastInDim S400000x1 ![0] bcast_S400000_S400000x1_0 (srcOf e))
    (broadcastInDim S400000 ![] bcast_S_S400000 (constant S_ .f32 0x3F800000#32))

/-- Where a node has an edge leaving it. -/
def pos (e : IVec S2x400000 32) : IVec S200000 1 :=
  cmpf (F := Ideal) .ogt (deg e) (broadcastInDim S200000 ![] bcast_S_S200000 (constant S_ .f32 0x00000000#32))

/-- `deg` to the power -1/2 where positive (computed of 1 elsewhere, and replaced by 0 there). -/
def dis (e : IVec S2x400000 32) : FVec Ideal S200000 .f32 :=
  select (pos e)
    (Host.rsqrt (select (pos e) (deg e) (broadcastInDim S200000 ![] bcast_S_S200000 (id (constant S_ .f32 0x3F800000#32)))))
    (broadcastInDim S200000 ![] bcast_S_S200000 (id (constant S_ .f32 0x00000000#32)))

/-- The weight of each edge `s → d`: `-dis s · dis d`. -/
def edgeW (e : IVec S2x400000 32) : FVec Ideal S400000 .f32 :=
  mulf
    (Host.negf (Host.gather gather_S200000_S400000x1_S400000_n_0_n_n_0_1_1 (dis e)
      (broadcastInDim S400000x1 ![0] bcast_S400000_S400000x1_0 (wrap (srcOf e)))))
    (Host.gather gather_S200000_S400000x1_S400000_n_0_n_n_0_1_1 (dis e)
      (broadcastInDim S400000x1 ![0] bcast_S400000_S400000x1_0 (wrap (dstOf e))))

/-- Every edge `s → d` adds row `s` of `x`, scaled by the edge's weight, into row `d` of an array of zeros (165 columns). -/
def prop165 (e : IVec S2x400000 32) (x : FVec Ideal S200000x165 .f32) : FVec Ideal S200000x165 .f32 :=
  Host.scatterAdd scatter_S200000x165_S400000x1_S400000x165_1_0_0_1
    (broadcastInDim S200000x165 ![] bcast_S_S200000x165 (constant S_ .f32 0x00000000#32))
    (broadcastInDim S400000x1 ![0] bcast_S400000_S400000x1_0 (dstOf e))
    (mulf
      (broadcastInDim S400000x165 ![0, 1] bcast_S400000x1_S400000x165_0_1
        (broadcastInDim S400000x1 ![0] bcast_S400000_S400000x1_0 (edgeW e)))
      (Host.gather gather_S200000x165_S400000x1_S400000x165_1_0_n_n_0_1_1165 x
        (broadcastInDim S400000x1 ![0] bcast_S400000_S400000x1_0 (wrap (srcOf e)))))

/-- The same with 512 columns. -/
def prop512 (e : IVec S2x400000 32) (h : FVec Ideal S200000x512 .f32) : FVec Ideal S200000x512 .f32 :=
  Host.scatterAdd scatter_S200000x512_S400000x1_S400000x512_1_0_0_1
    (broadcastInDim S200000x512 ![] bcast_S_S200000x512 (constant S_ .f32 0x00000000#32))
    (broadcastInDim S400000x1 ![0] bcast_S400000_S400000x1_0 (dstOf e))
    (mulf
      (broadcastInDim S400000x512 ![0, 1] bcast_S400000x1_S400000x512_0_1
        (broadcastInDim S400000x1 ![0] bcast_S400000_S400000x1_0 (edgeW e)))
      (Host.gather gather_S200000x512_S400000x1_S400000x512_1_0_n_n_0_1_1512 h
        (broadcastInDim S400000x1 ![0] bcast_S400000_S400000x1_0 (wrap (srcOf e)))))

/-- The first layer: the positive part of `x · W1_0 + prop165 x · W1_1 + b1`. -/
def hidden (e : IVec S2x400000 32) (x : FVec Ideal S200000x165 .f32) (w10 w11 : FVec Ideal S165x512 .f32)
    (b1 : FVec Ideal S512 .f32) : FVec Ideal S200000x512 .f32 :=
  layer (R := 200000) (K := 165) (N := 512) x (prop165 e x) w10 w11 (rowOf b1)

/-- The network: `relu (h · W2_0 + prop512 h · W2_1 + b2) · Wl + bl` at `h = hidden`. -/
def net (e : IVec S2x400000 32) (x : FVec Ideal S200000x165 .f32) (w10 w11 : FVec Ideal S165x512 .f32)
    (b1 : FVec Ideal S512 .f32) (w20 w21 : FVec Ideal S512x512 .f32) (b2 : FVec Ideal S512 .f32)
    (wl : FVec Ideal S512x2 .f32) (bl : FVec Ideal S2 .f32) : FVec Ideal S200000x2 .f32 :=
  layerHead (R := 200000) (K := 512) (N := 512) (C := 2) (hidden e x w10 w11 b1) (prop512 e (hidden e x w10 w11 b1))
    w20 w21 (rowOf b2) wl (rowOf bl)

/-! ## The reference program's spelling of the two layers -/

/-- The first layer as array operations on whole arrays spell it. -/
def hostHidden (e : IVec S2x400000 32) (x : FVec Ideal S200000x165 .f32) (w10 w11 : FVec Ideal S165x512 .f32)
    (b1 : FVec Ideal S512 .f32) : FVec Ideal S200000x512 .f32 :=
  maximumf
    (addf
      (addf (Host.dotGeneral dot_S200000x165_S165x512_S200000x512_1_0_0_1_n_n none x w10)
        (Host.dotGeneral dot_S200000x165_S165x512_S200000x512_1_0_0_1_n_n none (prop165 e x) w11))
      (broadcastInDim S200000x512 ![0, 1] bcast_S1x512_S200000x512_0_1 (broadcastInDim S1x512 ![1] bcast_S512_S1x512_1 b1)))
    (broadcastInDim S200000x512 ![] bcast_S_S200000x512 (constant S_ .f32 0x00000000#32))

/-- The network as array operations on whole arrays spell it. -/
def hostNet (e : IVec S2x400000 32) (x : FVec Ideal S200000x165 .f32) (w10 w11 : FVec Ideal S165x512 .f32)
    (b1 : FVec Ideal S512 .f32) (w20 w21 : FVec Ideal S512x512 .f32) (b2 : FVec Ideal S512 .f32)
    (wl : FVec Ideal S512x2 .f32) (bl : FVec Ideal S2 .f32) : FVec Ideal S200000x2 .f32 :=
  addf
    (Host.dotGeneral dot_S200000x512_S512x2_S200000x2_1_0_0_1_n_n none
      (maximumf
        (addf
          (addf (Host.dotGeneral dot_S200000x512_S512x512_S200000x512_1_0_0_1_n_n none (hostHidden e x w10 w11 b1) w20)
            (Host.dotGeneral dot_S200000x512_S512x512_S200000x512_1_0_0_1_n_n none (prop512 e (hostHidden e x w10 w11 b1)) w21))
          (broadcastInDim S200000x512 ![0, 1] bcast_S1x512_S200000x512_0_1 (broadcastInDim S1x512 ![1] bcast_S512_S1x512_1 b2)))
        (broadcastInDim S200000x512 ![] bcast_S_S200000x512 (constant S_ .f32 0x00000000#32)))
      wl)
    (broadcastInDim S200000x2 ![0, 1] bcast_S1x2_S200000x2_0_1 (broadcastInDim S1x2 ![1] bcast_S2_S1x2_1 bl))

/-- The whole-array spelling of the first layer is the first layer. -/
theorem hostHidden_eq (e : IVec S2x400000 32) (x : FVec Ideal S200000x165 .f32) (w10 w11 : FVec Ideal S165x512 .f32)
    (b1 : FVec Ideal S512 .f32) : hostHidden e x w10 w11 b1 = hidden e x w10 w11 b1 := by
  unfold hostHidden hidden
  rw [bcast_rowOf]
  exact host_layer (R := 200000) (K := 165) (N := 512) x (prop165 e x) w10 w11 (rowOf b1) _ _

/-- The whole-array spelling of the network is the network. -/
theorem hostNet_eq (e : IVec S2x400000 32) (x : FVec Ideal S200000x165 .f32) (w10 w11 : FVec Ideal S165x512 .f32)
    (b1 : FVec Ideal S512 .f32) (w20 w21 : FVec Ideal S512x512 .f32) (b2 : FVec Ideal S512 .f32)
    (wl : FVec Ideal S512x2 .f32) (bl : FVec Ideal S2 .f32) :
    hostNet e x w10 w11 b1 w20 w21 b2 wl bl = net e x w10 w11 b1 w20 w21 b2 wl bl := by
  unfold hostNet net
  rw [hostHidden_eq, bcast_rowOf, bcast_rowOf]
  exact host_layerHead (R := 200000) (K := 512) (N := 512) (C := 2) (hidden e x w10 w11 b1) (prop512 e (hidden e x w10 w11 b1))
    w20 w21 (rowOf b2) wl (rowOf bl) _ _ _

end Cert.RefSpec

end
-- ==== Proof.RefValue.lean ====
/-
  The reference program's result is the network of the arguments.

  The reference program is a straight line of array operations; its run (RefRun.lean) ends with the result buffer at the
  operations' composed term of the argument arrays. That term is, read structurally, the whole-array spelling of the
  network (RefSpec.lean `hostNet`: the operations on the edges, the two propagations, the two layers and the head, in
  the order the program applies them), and `hostNet` is the network `net` (`hostNet_eq`).
-/
import proofs.«126151_j64364379898206_1_alg».proof.Proof.RefRun
import proofs.«126151_j64364379898206_1_alg».proof.Proof.RefSpec

set_option maxRecDepth 16384

noncomputable section

namespace Cert.RefSpec

open Cert.ReferenceIdeal Cert.ReferenceIdeal.Gen
open Idealize.ShloMosaic Idealize.ShloMosaic.TcCoe Idealize.SL.Sem

variable (m : (ℓ : Loc nD τ sig) → Buf (Elt Ideal) ℓ)

/-- The network of a memory's argument arrays, on device `c`. -/
abbrev netOf (c : Dev nD) : FVec Ideal S200000x2 .f32 :=
  net (m ((c.tc : Thread nD τ).loc main_arg1)) (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- The composed term of the reference's operations is the whole-array spelling of the network. -/
theorem res_eq_hostNet (c : Dev nD) :
    Cert.ReferenceIdeal.ValueP.res_main_v74 (F := Ideal) m c
      = hostNet (m ((c.tc : Thread nD τ).loc main_arg1)) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := rfl

/-- The reference's result is the network of its arguments. -/
theorem res_eq_net (c : Dev nD) : Cert.ReferenceIdeal.ValueP.res_main_v74 (F := Ideal) m c = netOf m c :=
  (res_eq_hostNet m c).trans (hostNet_eq _ _ _ _ _ _ _ _ _ _)

end Cert.RefSpec

end
-- ==== Proof.KernelRun.lean ====
/-
  The idealized kernel program's run, read at its result.

  The program is two kernel launches among stretches of array operations. The generated frame module names the
  contents of every buffer at each boundary between stretches and launches (`Gen.W0` … `Gen.W8`: the launch memory
  pushed through the operations of a stretch, or through a launch's write-backs). When the run ends, every buffer
  that lives as long as the program holds its contents at the last boundary, `Gen.W8` (`GenP.run_all`). So the
  result array ends at `Gen.W8` read at the result's buffer, and the arguments, which nothing writes, end as launched.
  What `Gen.W8` holds at the result's buffer, as a function of the arguments, is the business of the modules that import this one.
-/
import proofs.«126151_j64364379898206_1_alg».proof.Proof.KernelRunAll

noncomputable section

namespace Cert.KernelIdeal.Run

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The result array ends at the last boundary's contents of its buffer, and the argument arrays end as launched. -/
theorem run_result : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)
    (GenP.run_all m ρ)

end Cert.KernelIdeal.Run

end
-- ==== Proof.KernelLayer2.lean ====
/-
  What the second kernel launch leaves in its output array.

  The launch walks 200 grid points; at point `t` its body is handed rows `1000 t … 1000 t + 999` of the hidden array and
  of the propagated hidden array, and, whole, the two weight matrices, the bias row, the head's weights and the head's
  bias row; it stores into rows `1000 t … 1000 t + 999` of the output the layer of those rows followed by the head
  (LibChebLayer.lean `layerHead`). A row of the result reads the same row of the two hidden arrays only, so what point
  `t` writes back is block `t` of `layerHead` of the WHOLE arrays; the 200 blocks tile the 200000 rows, so the output
  array ends at `layerHead` of the whole arrays. All of this is stated at any contents `V` of the buffers when the
  launch is entered.
-/
import proofs.«126151_j64364379898206_1_alg».proof.Proof.Gen.KernelIdeal.Frame
import proofs.«126151_j64364379898206_1_alg».proof.Proof.LibChebLayer
import Idealize.ShloMosaic.Lib.Pipeline.Value
import Idealize.ShloMosaic.Lib.ValueIdx

set_option maxRecDepth 16384

noncomputable section

namespace Cert.KernelIdeal.Layer2

open Cert.KernelIdeal Cert.KernelIdeal.Gen Cert.ChebLayer
open Idealize.ShloMosaic Idealize.ShloMosaic.TcCoe Idealize.ShloMosaic.ValueIdx Idealize.SL.Sem
open Idealize.ShloMosaic.Pipeline (Dat Cfg Window)

/-- The zero offsets of a whole-block access, however spelt. -/
theorem hz : (![0, 0] : Fin 2 → Nat) = fun _ => 0 := funext fun a => by fin_cases a <;> rfl

/-- The body's stored value, from the blocks it loads, is the layer of those blocks followed by the head. -/
theorem out_eq (x0 x1 : Vec Ideal S1000x512 .f32) (x2 x3 : Vec Ideal S512x512 .f32) (x4 : Vec Ideal S1x512 .f32)
    (x5 : Vec Ideal S512x2 .f32) (x6 : Vec Ideal S1x2 .f32) :
    out1_7 x0 x1 x2 x3 x4 x5 x6 = layerHead (R := 1000) (K := 512) (N := 512) (C := 2) x0 x1 x2 x3 x4 x5 x6 := by
  unfold out1_7
  rw [View.canon_unit_zero hz]
  simp only [View.ld_unit_zero (S := S1000x512) hz, View.ld_unit_zero (S := S512x512) hz, View.ld_unit_zero (S := S1x512) hz,
    View.ld_unit_zero (S := S512x2) hz, View.ld_unit_zero (S := S1x2) hz]
  unfold k1_pay1
  rw [shapeCast_self (v := x0), shapeCast_self (v := x1)]
  exact block_layerHead x0 x1 x2 x3 x4 x5 x6 _ _ _ _ _

/-- Rows `1000 n … 1000 n + 999` of `layerHead` of whole arrays are `layerHead` of those rows of the two hidden arrays. -/
theorem layerHead_block (X P : FVec Ideal S200000x512 .f32) (W0 W1 : FVec Ideal S512x512 .f32) (Bv : FVec Ideal S1x512 .f32)
    (WL : FVec Ideal S512x2 .f32) (Dv : FVec Ideal S1x2 .f32)
    (xb pb : FVec Ideal S1000x512 .f32) (w0 w1 : FVec Ideal S512x512 .f32) (bv : FVec Ideal S1x512 .f32)
    (wl : FVec Ideal S512x2 .f32) (dv : FVec Ideal S1x2 .f32)
    (n : ℕ) (hn : n < 200)
    (hx : ∀ (r : Fin 1000) (k : Fin 512), xb (ix2 r k) = X (ix2 (⟨n * 1000 + r.val, by have := r.isLt; omega⟩ : Fin 200000) k))
    (hp : ∀ (r : Fin 1000) (k : Fin 512), pb (ix2 r k) = P (ix2 (⟨n * 1000 + r.val, by have := r.isLt; omega⟩ : Fin 200000) k))
    (hw0 : w0 = W0) (hw1 : w1 = W1) (hb : bv = Bv) (hwl : wl = WL) (hd : dv = Dv) (r : Fin 1000) (q : Fin 2) :
    layerHead (R := 1000) (K := 512) (N := 512) (C := 2) xb pb w0 w1 bv wl dv (ix2 r q)
      = layerHead (R := 200000) (K := 512) (N := 512) (C := 2) X P W0 W1 Bv WL Dv
          (ix2 (⟨n * 1000 + r.val, by have := r.isLt; omega⟩ : Fin 200000) q) := by
  subst hw0 hw1 hb hwl hd
  exact layerHead_rows (fun r : Fin 1000 => (⟨n * 1000 + r.val, by have := r.isLt; omega⟩ : Fin 200000)) X P w0 w1 bv wl dv xb pb hx hp
    (ix2 r q)

variable (V : (c : Dev nD) → (b : Ref sig .tc) → Buf (Elt Ideal) ((c : Thread nD τ).loc b))

/-- The printed index maps, decided over the grid: the two hidden arrays and the output are at block `(t, 0)`, the
    weights and the bias rows at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- WHAT POINT `t` WRITES BACK is block `t` of `layerHead` of the arrays as the launch finds them. -/
theorem flushed_eq (c : Dev nD) (t : Fin cfg1.N) :
    (dat1 V c).flushed 7 t = ((cfg1.win 7).blk t).view.read (Elt Ideal)
      (layerHead (R := 200000) (K := 512) (N := 512) (C := 2) (V c main_v45) (V c main_v58) (V c main_arg5) (V c main_arg6)
        (V c main_v59) (V c main_arg8) (V c main_v60)) := by
  show (cfg1.win 7).cut (grid1.coords t) ((dat1 V c).after 7 t) = _
  rw [after1_7, out_eq]
  obtain ⟨e00, e01, e10, e11, e20, e21, e30, e31, e40, e41, e50, e51, e60, e61, e70, e71⟩ := idx_facts t
  have hN : grid1.N = 200 := N_1
  have ht : t.val < 200 := hN ▸ t.isLt
  funext j
  obtain ⟨r, q, rfl⟩ : ∃ (r : Fin 1000) (q : Fin 2), j = ix2 r q := ⟨j 0, j 1, eq_ix2 j⟩
  show layerHead (R := 1000) (K := 512) (N := 512) (C := 2) (iblk1 V c 0 t) (iblk1 V c 1 t) (iblk1 V c 2 t) (iblk1 V c 3 t)
      (iblk1 V c 4 t) (iblk1 V c 5 t) (iblk1 V c 6 t) (ix2 r q)
    = layerHead (R := 200000) (K := 512) (N := 512) (C := 2) (V c main_v45) (V c main_v58) (V c main_arg5) (V c main_arg6)
        (V c main_v59) (V c main_arg8) (V c main_v60) (((cfg1.win 7).blk t).view.emb (ix2 r q))
  have hemb : ((cfg1.win 7).blk t).view.emb (ix2 r q) = ix2 (⟨t.val * 1000 + r.val, by have := r.isLt; omega⟩ : Fin 200000) q := by
    funext a; apply Fin.ext
    match a with
    | ⟨0, _⟩ => show win1_7.index t (0 : Fin 2) * 1000 + 1 * r.val = t.val * 1000 + r.val; omega
    | ⟨1, _⟩ => show win1_7.index t (1 : Fin 2) * 2 + 1 * q.val = q.val; omega
  rw [hemb]
  refine layerHead_block (V c main_v45) (V c main_v58) (V c main_arg5) (V c main_arg6) (V c main_v59) (V c main_arg8) (V c main_v60)
    (iblk1 V c 0 t) (iblk1 V c 1 t) (iblk1 V c 2 t) (iblk1 V c 3 t) (iblk1 V c 4 t) (iblk1 V c 5 t) (iblk1 V c 6 t)
    t.val ht ?_ ?_ ?_ ?_ ?_ ?_ ?_ r q
  · intro r k
    show V c main_v45 (((cfg1.win 0).blk t).view.emb (ix2 r k)) = V c main_v45 _
    refine congrArg _ ?_
    funext a; apply Fin.ext
    match a with
    | ⟨0, _⟩ => show win1_0.index t (0 : Fin 2) * 1000 + 1 * r.val = t.val * 1000 + r.val; omega
    | ⟨1, _⟩ => show win1_0.index t (1 : Fin 2) * 512 + 1 * k.val = k.val; omega
  · intro r k
    show V c main_v58 (((cfg1.win 1).blk t).view.emb (ix2 r k)) = V c main_v58 _
    refine congrArg _ ?_
    funext a; apply Fin.ext
    match a with
    | ⟨0, _⟩ => show win1_1.index t (0 : Fin 2) * 1000 + 1 * r.val = t.val * 1000 + r.val; omega
    | ⟨1, _⟩ => show win1_1.index t (1 : Fin 2) * 512 + 1 * k.val = k.val; omega
  · funext y
    show V c main_arg5 (((cfg1.win 2).blk t).view.emb y) = V c main_arg5 y
    refine congrArg _ ?_
    funext a; apply Fin.ext
    match a with
    | ⟨0, _⟩ => show win1_2.index t (0 : Fin 2) * 512 + 1 * (y 0).val = (y 0).val; omega
    | ⟨1, _⟩ => show win1_2.index t (1 : Fin 2) * 512 + 1 * (y 1).val = (y 1).val; omega
  · funext y
    show V c main_arg6 (((cfg1.win 3).blk t).view.emb y) = V c main_arg6 y
    refine congrArg _ ?_
    funext a; apply Fin.ext
    match a with
    | ⟨0, _⟩ => show win1_3.index t (0 : Fin 2) * 512 + 1 * (y 0).val = (y 0).val; omega
    | ⟨1, _⟩ => show win1_3.index t (1 : Fin 2) * 512 + 1 * (y 1).val = (y 1).val; omega
  · funext y
    show V c main_v59 (((cfg1.win 4).blk t).view.emb y) = V c main_v59 y
    refine congrArg _ ?_
    funext a; apply Fin.ext
    match a with
    | ⟨0, _⟩ => show win1_4.index t (0 : Fin 2) * 1 + 1 * (y 0).val = (y 0).val; omega
    | ⟨1, _⟩ => show win1_4.index t (1 : Fin 2) * 512 + 1 * (y 1).val = (y 1).val; omega
  · funext y
    show V c main_arg8 (((cfg1.win 5).blk t).view.emb y) = V c main_arg8 y
    refine congrArg _ ?_
    funext a; apply Fin.ext
    match a with
    | ⟨0, _⟩ => show win1_5.index t (0 : Fin 2) * 512 + 1 * (y 0).val = (y 0).val; omega
    | ⟨1, _⟩ => show win1_5.index t (1 : Fin 2) * 2 + 1 * (y 1).val = (y 1).val; omega
  · funext y
    show V c main_v60 (((cfg1.win 6).blk t).view.emb y) = V c main_v60 y
    refine congrArg _ ?_
    funext a; apply Fin.ext
    match a with
    | ⟨0, _⟩ => show win1_6.index t (0 : Fin 2) * 1 + 1 * (y 0).val = (y 0).val; omega
    | ⟨1, _⟩ => show win1_6.index t (1 : Fin 2) * 2 + 1 * (y 1).val = (y 1).val; omega

/-- An index of the output array is in point `t`'s block iff each coordinate is in the block's range on its axis. -/
theorem mem_blk (t : Fin cfg1.N) (i : S200000x2.Idx) :
    i ∈ ((cfg1.win 7).blk t).view.set ↔ ∀ a : Fin 2, win1_7.index t a * S1000x2.size a ≤ (i a).val ∧ (i a).val < win1_7.index t a * S1000x2.size a + S1000x2.size a := by
  show i ∈ ((View.whole main_v61).slice (win1_7.rect t)).set ↔ _
  rw [View.set_slice_whole, Rect.mem_set_unit]
  exact Iff.rfl

/-- The 200 blocks of 1000 rows tile the output: row `r` is in the block of point `r / 1000`. -/
theorem cover (i : S200000x2.Idx) : ∃ t : Fin cfg1.N, (cfg1.win 7).flush t = true ∧ i ∈ ((cfg1.win 7).blk t).view.set := by
  have hi0 : (i 0).val < 200000 := (i 0).isLt
  have hi1 : (i 1).val < 2 := (i 1).isLt
  have hN : grid1.N = 200 := N_1
  let t : Fin cfg1.N := ⟨(i 0).val / 1000, by show (i 0).val / 1000 < grid1.N; omega⟩
  obtain ⟨-, -, -, -, -, -, -, -, -, -, -, -, -, -, e70, e71⟩ := idx_facts t
  have q0 : win1_7.index t (0 : Fin 2) = (i 0).val / 1000 := e70
  refine ⟨t, flush1_7 t, ?_⟩
  rw [mem_blk]
  intro a
  match a with
  | ⟨0, _⟩ => show win1_7.index t (0 : Fin 2) * 1000 ≤ (i 0).val ∧ (i 0).val < win1_7.index t (0 : Fin 2) * 1000 + 1000; omega
  | ⟨1, _⟩ => show win1_7.index t (1 : Fin 2) * 2 ≤ (i 1).val ∧ (i 1).val < win1_7.index t (1 : Fin 2) * 2 + 2; omega

/-- THE OUTPUT ARRAY after the launch: `layerHead` of the arrays as the launch finds them. -/
theorem final (c : Dev nD) : (dat1 V c).arrAt 7 cfg1.N
    = layerHead (R := 200000) (K := 512) (N := 512) (C := 2) (V c main_v45) (V c main_v58) (V c main_arg5) (V c main_arg6)
        (V c main_v59) (V c main_arg8) (V c main_v60) :=
  (dat1 V c).arrAt_eq_of_cover 7 _ (fun t _ => flushed_eq V c t) cover

end Cert.KernelIdeal.Layer2

end
-- ==== Proof.KernelEntry1.lean ====
/-
  The contents of the buffers the first kernel launch reads, as functions of the arguments.

  Before the first launch the program runs array operations on the edge array (sources, destinations, the count of
  edges leaving each node, its power -1/2 where positive, the weight of each edge) and propagates the node array along
  the weighted edges. Pushing the launch memory through those operations, in order, gives each buffer the launch reads:
  the node array and the two weight matrices are the arguments, untouched; the propagated node array is `prop165` of the
  edge array and the node array (RefSpec.lean, where these functions are spelt once for both programs); the bias row is
  the bias vector laid out as one row. Three more buffers are read here because the operations between the two launches
  use them again: the edges' sources and destinations and the edges' weights.
-/
import proofs.«126151_j64364379898206_1_alg».proof.Proof.Gen.KernelIdeal.Frame
import proofs.«126151_j64364379898206_1_alg».proof.Proof.RefSpec
import proofs.«126151_j64364379898206_1_alg».proof.Proof.LibBufCast
import Idealize.ShloMosaic.Lib.StableHlo.Run

set_option maxRecDepth 16384

noncomputable section

namespace Cert.KernelIdeal.Entry1

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The node array is the argument. -/
theorem at_arg0 (c : Dev nD) : W5 m ρ c (Proc.devRef .tc main_arg0) = m ((c : Thread nD τ).loc main_arg0) := by
  dsimp only [W5, W4, W3, W2, W1, W0]
  after_results_simp <;> rfl

set_option maxHeartbeats 4000000 in
/-- The first weight matrix is the argument. -/
theorem at_arg2 (c : Dev nD) : W5 m ρ c (Proc.devRef .tc main_arg2) = m ((c : Thread nD τ).loc main_arg2) := by
  dsimp only [W5, W4, W3, W2, W1, W0]
  after_results_simp <;> rfl

set_option maxHeartbeats 4000000 in
/-- The second weight matrix is the argument. -/
theorem at_arg3 (c : Dev nD) : W5 m ρ c (Proc.devRef .tc main_arg3) = m ((c : Thread nD τ).loc main_arg3) := by
  dsimp only [W5, W4, W3, W2, W1, W0]
  after_results_simp <;> rfl

set_option maxHeartbeats 4000000 in
/-- The bias row is the bias vector laid out as one row. -/
theorem at_v44 (c : Dev nD) : W5 m ρ c (Proc.devRef .tc main_v44) = shapeCast S1x512 (m ((c : Thread nD τ).loc main_arg4)) shapeCasts_S512_S1x512 := by
  dsimp only [W5, W4, W3, W2, W1, W0]
  after_results_simp <;> rfl

set_option maxHeartbeats 4000000 in
/-- The edges' sources. -/
theorem at_v1 (c : Dev nD) : W5 m ρ c (Proc.devRef .tc main_v1) = Cert.RefSpec.srcOf (m ((c : Thread nD τ).loc main_arg1)) := by
  dsimp only [W5, W4, W3, W2, W1, W0]
  after_results_simp <;> rfl

set_option maxHeartbeats 4000000 in
/-- The edges' destinations. -/
theorem at_v3 (c : Dev nD) : W5 m ρ c (Proc.devRef .tc main_v3) = Cert.RefSpec.dstOf (m ((c : Thread nD τ).loc main_arg1)) := by
  dsimp only [W5, W4, W3, W2, W1, W0]
  after_results_simp <;> rfl

set_option maxHeartbeats 4000000 in
/-- The edges' weights. -/
theorem at_v30 (c : Dev nD) : W5 m ρ c (Proc.devRef .tc main_v30) = Cert.RefSpec.edgeW (m ((c : Thread nD τ).loc main_arg1)) := by
  dsimp only [W5, W4, W3, W2, W1, W0]
  after_results_simp
  simp only [TRef.toBuf, TRef.ofBuf, cast_eq]
  rfl

set_option maxHeartbeats 4000000 in
/-- The propagated node array is `prop165` of the edge array and the node array. -/
theorem at_v43 (c : Dev nD) : W5 m ρ c (Proc.devRef .tc main_v43) = Cert.RefSpec.prop165 (m ((c : Thread nD τ).loc main_arg1)) (m ((c : Thread nD τ).loc main_arg0)) := by
  dsimp only [W5, W4, W3, W2, W1, W0]
  after_results_simp
  simp only [TRef.toBuf, TRef.ofBuf, cast_eq]
  rfl

end Cert.KernelIdeal.Entry1

end
-- ==== Proof.KernelLayer1.lean ====
/-
  What the first kernel launch leaves in its output array.

  The launch walks 200 grid points; at point `t` its body is handed rows `1000 t … 1000 t + 999` of the node array and
  of the propagated node array, the two weight matrices and the bias row whole, and stores into rows
  `1000 t … 1000 t + 999` of the output the layer of those rows (LibChebLayer.lean `layer`: the two products added, the
  bias row added, the positive part). A row of the layer reads the same row of the two node arrays only, so what point
  `t` writes back is block `t` of the layer of the WHOLE arrays; the 200 blocks tile the 200000 rows, so the output
  array ends at the layer of the whole arrays. All of this is stated at any contents `V` of the buffers when the launch
  is entered.
-/
import proofs.«126151_j64364379898206_1_alg».proof.Proof.Gen.KernelIdeal.Frame
import proofs.«126151_j64364379898206_1_alg».proof.Proof.LibChebLayer
import Idealize.ShloMosaic.Lib.Pipeline.Value
import Idealize.ShloMosaic.Lib.ValueIdx

set_option maxRecDepth 16384

noncomputable section

namespace Cert.KernelIdeal.Layer1

open Cert.KernelIdeal Cert.KernelIdeal.Gen Cert.ChebLayer
open Idealize.ShloMosaic Idealize.ShloMosaic.TcCoe Idealize.ShloMosaic.ValueIdx Idealize.SL.Sem
open Idealize.ShloMosaic.Pipeline (Dat Cfg Window)

/-- The zero offsets of a whole-block access, however spelt. -/
theorem hz : (![0, 0] : Fin 2 → Nat) = fun _ => 0 := funext fun a => by fin_cases a <;> rfl

/-- The body's stored value, from the blocks it loads, is the layer of those blocks. -/
theorem out_eq (x0 x1 : Vec Ideal S1000x165 .f32) (x2 x3 : Vec Ideal S165x512 .f32) (x4 : Vec Ideal S1x512 .f32) :
    out0_5 x0 x1 x2 x3 x4 = layer (R := 1000) (K := 165) (N := 512) x0 x1 x2 x3 x4 := by
  unfold out0_5
  rw [View.canon_unit_zero hz]
  simp only [View.ld_unit_zero (S := S1000x165) hz, View.ld_unit_zero (S := S165x512) hz, View.ld_unit_zero (S := S1x512) hz]
  unfold k0_pay1
  rw [shapeCast_self (v := x1)]
  exact block_layer x0 x1 x2 x3 x4 _ _ _

/-- Rows `1000 n … 1000 n + 999` of the layer of whole arrays are the layer of those rows of the two node arrays. -/
theorem layer_block (X P : FVec Ideal S200000x165 .f32) (W0 W1 : FVec Ideal S165x512 .f32) (Bv : FVec Ideal S1x512 .f32)
    (xb pb : FVec Ideal S1000x165 .f32) (w0 w1 : FVec Ideal S165x512 .f32) (bv : FVec Ideal S1x512 .f32)
    (n : ℕ) (hn : n < 200)
    (hx : ∀ (r : Fin 1000) (k : Fin 165), xb (ix2 r k) = X (ix2 (⟨n * 1000 + r.val, by have := r.isLt; omega⟩ : Fin 200000) k))
    (hp : ∀ (r : Fin 1000) (k : Fin 165), pb (ix2 r k) = P (ix2 (⟨n * 1000 + r.val, by have := r.isLt; omega⟩ : Fin 200000) k))
    (hw0 : w0 = W0) (hw1 : w1 = W1) (hb : bv = Bv) (r : Fin 1000) (q : Fin 512) :
    layer (R := 1000) (K := 165) (N := 512) xb pb w0 w1 bv (ix2 r q)
      = layer (R := 200000) (K := 165) (N := 512) X P W0 W1 Bv (ix2 (⟨n * 1000 + r.val, by have := r.isLt; omega⟩ : Fin 200000) q) := by
  subst hw0 hw1 hb
  exact layer_rows (fun r : Fin 1000 => (⟨n * 1000 + r.val, by have := r.isLt; omega⟩ : Fin 200000)) X P w0 w1 bv xb pb hx hp r q

variable (V : (c : Dev nD) → (b : Ref sig .tc) → Buf (Elt Ideal) ((c : Thread nD τ).loc b))

/-- The printed index maps, decided over the grid: the two node arrays and the output are at block `(t, 0)`, the
    weights and the bias row at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the layer of the arrays as the launch finds them. -/
theorem flushed_eq (c : Dev nD) (t : Fin cfg0.N) :
    (dat0 V c).flushed 5 t = ((cfg0.win 5).blk t).view.read (Elt Ideal)
      (layer (R := 200000) (K := 165) (N := 512) (V c main_arg0) (V c main_v43) (V c main_arg2) (V c main_arg3) (V c main_v44)) := by
  show (cfg0.win 5).cut (grid0.coords t) ((dat0 V c).after 5 t) = _
  rw [after0_5, out_eq]
  obtain ⟨e00, e01, e10, e11, e20, e21, e30, e31, e40, e41, e50, e51⟩ := idx_facts t
  have hN : grid0.N = 200 := N_0
  have ht : t.val < 200 := hN ▸ t.isLt
  funext j
  obtain ⟨r, q, rfl⟩ : ∃ (r : Fin 1000) (q : Fin 512), j = ix2 r q := ⟨j 0, j 1, eq_ix2 j⟩
  show layer (R := 1000) (K := 165) (N := 512) (iblk0 V c 0 t) (iblk0 V c 1 t) (iblk0 V c 2 t) (iblk0 V c 3 t) (iblk0 V c 4 t) (ix2 r q)
    = layer (R := 200000) (K := 165) (N := 512) (V c main_arg0) (V c main_v43) (V c main_arg2) (V c main_arg3) (V c main_v44)
        (((cfg0.win 5).blk t).view.emb (ix2 r q))
  have hemb : ((cfg0.win 5).blk t).view.emb (ix2 r q) = ix2 (⟨t.val * 1000 + r.val, by have := r.isLt; omega⟩ : Fin 200000) q := by
    funext a; apply Fin.ext
    match a with
    | ⟨0, _⟩ => show win0_5.index t (0 : Fin 2) * 1000 + 1 * r.val = t.val * 1000 + r.val; omega
    | ⟨1, _⟩ => show win0_5.index t (1 : Fin 2) * 512 + 1 * q.val = q.val; omega
  rw [hemb]
  refine layer_block (V c main_arg0) (V c main_v43) (V c main_arg2) (V c main_arg3) (V c main_v44)
    (iblk0 V c 0 t) (iblk0 V c 1 t) (iblk0 V c 2 t) (iblk0 V c 3 t) (iblk0 V c 4 t) t.val ht ?_ ?_ ?_ ?_ ?_ r q
  · intro r k
    show V c main_arg0 (((cfg0.win 0).blk t).view.emb (ix2 r k)) = V c main_arg0 _
    refine congrArg _ ?_
    funext a; apply Fin.ext
    match a with
    | ⟨0, _⟩ => show win0_0.index t (0 : Fin 2) * 1000 + 1 * r.val = t.val * 1000 + r.val; omega
    | ⟨1, _⟩ => show win0_0.index t (1 : Fin 2) * 165 + 1 * k.val = k.val; omega
  · intro r k
    show V c main_v43 (((cfg0.win 1).blk t).view.emb (ix2 r k)) = V c main_v43 _
    refine congrArg _ ?_
    funext a; apply Fin.ext
    match a with
    | ⟨0, _⟩ => show win0_1.index t (0 : Fin 2) * 1000 + 1 * r.val = t.val * 1000 + r.val; omega
    | ⟨1, _⟩ => show win0_1.index t (1 : Fin 2) * 165 + 1 * k.val = k.val; omega
  · funext y
    show V c main_arg2 (((cfg0.win 2).blk t).view.emb y) = V c main_arg2 y
    refine congrArg _ ?_
    funext a; apply Fin.ext
    match a with
    | ⟨0, _⟩ => show win0_2.index t (0 : Fin 2) * 165 + 1 * (y 0).val = (y 0).val; omega
    | ⟨1, _⟩ => show win0_2.index t (1 : Fin 2) * 512 + 1 * (y 1).val = (y 1).val; omega
  · funext y
    show V c main_arg3 (((cfg0.win 3).blk t).view.emb y) = V c main_arg3 y
    refine congrArg _ ?_
    funext a; apply Fin.ext
    match a with
    | ⟨0, _⟩ => show win0_3.index t (0 : Fin 2) * 165 + 1 * (y 0).val = (y 0).val; omega
    | ⟨1, _⟩ => show win0_3.index t (1 : Fin 2) * 512 + 1 * (y 1).val = (y 1).val; omega
  · funext y
    show V c main_v44 (((cfg0.win 4).blk t).view.emb y) = V c main_v44 y
    refine congrArg _ ?_
    funext a; apply Fin.ext
    match a with
    | ⟨0, _⟩ => show win0_4.index t (0 : Fin 2) * 1 + 1 * (y 0).val = (y 0).val; omega
    | ⟨1, _⟩ => show win0_4.index t (1 : Fin 2) * 512 + 1 * (y 1).val = (y 1).val; omega

/-- An index of the output array is in point `t`'s block iff each coordinate is in the block's range on its axis. -/
theorem mem_blk (t : Fin cfg0.N) (i : S200000x512.Idx) :
    i ∈ ((cfg0.win 5).blk t).view.set ↔ ∀ a : Fin 2, win0_5.index t a * S1000x512.size a ≤ (i a).val ∧ (i a).val < win0_5.index t a * S1000x512.size a + S1000x512.size a := by
  show i ∈ ((View.whole main_v45).slice (win0_5.rect t)).set ↔ _
  rw [View.set_slice_whole, Rect.mem_set_unit]
  exact Iff.rfl

/-- The 200 blocks of 1000 rows tile the output: row `r` is in the block of point `r / 1000`. -/
theorem cover (i : S200000x512.Idx) : ∃ t : Fin cfg0.N, (cfg0.win 5).flush t = true ∧ i ∈ ((cfg0.win 5).blk t).view.set := by
  have hi0 : (i 0).val < 200000 := (i 0).isLt
  have hi1 : (i 1).val < 512 := (i 1).isLt
  have hN : grid0.N = 200 := N_0
  let t : Fin cfg0.N := ⟨(i 0).val / 1000, by show (i 0).val / 1000 < grid0.N; omega⟩
  obtain ⟨-, -, -, -, -, -, -, -, -, -, e50, e51⟩ := idx_facts t
  have q0 : win0_5.index t (0 : Fin 2) = (i 0).val / 1000 := e50
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 512 ≤ (i 1).val ∧ (i 1).val < win0_5.index t (1 : Fin 2) * 512 + 512; omega

/-- THE OUTPUT ARRAY after the launch: the layer of the arrays as the launch finds them. -/
theorem final (c : Dev nD) : (dat0 V c).arrAt 5 cfg0.N
    = layer (R := 200000) (K := 165) (N := 512) (V c main_arg0) (V c main_v43) (V c main_arg2) (V c main_arg3) (V c main_v44) :=
  (dat0 V c).arrAt_eq_of_cover 5 _ (fun t _ => flushed_eq V c t) cover

end Cert.KernelIdeal.Layer1

end
-- ==== Proof.KernelEntry2.lean ====
/-
  The contents of the buffers the second kernel launch reads, as functions of the arguments.

  The first launch leaves the hidden array in its output buffer: the layer of the node array and the propagated node
  array (KernelLayer1.lean), that is `hidden` of the arguments (RefSpec.lean); every buffer that is not one of its arrays
  keeps what it held. Between the launches the program propagates the hidden array along the weighted edges — the same
  gathering, scaling and scattering as before, on 512 columns, with the edges' sources, destinations and weights
  computed before the first launch — and lays the two bias vectors out as rows. So the second launch reads: the
  hidden array; `prop512` of the edge array and the hidden array; the weight matrices and the head's weights, which are
  the arguments, untouched; and the two bias rows.
-/
import proofs.«126151_j64364379898206_1_alg».proof.Proof.Gen.KernelIdeal.Frame
import proofs.«126151_j64364379898206_1_alg».proof.Proof.RefSpec
import proofs.«126151_j64364379898206_1_alg».proof.Proof.KernelEntry1
import proofs.«126151_j64364379898206_1_alg».proof.Proof.KernelLayer1
import Idealize.ShloMosaic.Lib.StableHlo.Run

set_option maxRecDepth 16384

noncomputable section

namespace Cert.KernelIdeal.Entry2

open Cert.KernelIdeal Cert.KernelIdeal.Gen Cert.ChebLayer Cert.BiasReluRows
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Arguments the first launch does not touch, before it -/

set_option maxHeartbeats 4000000 in
theorem before_arg5 (c : Dev nD) : W5 m ρ c (Proc.devRef .tc main_arg5) = m ((c : Thread nD τ).loc main_arg5) := by
  dsimp only [W5, W4, W3, W2, W1, W0]
  after_results_simp <;> rfl

set_option maxHeartbeats 4000000 in
theorem before_arg6 (c : Dev nD) : W5 m ρ c (Proc.devRef .tc main_arg6) = m ((c : Thread nD τ).loc main_arg6) := by
  dsimp only [W5, W4, W3, W2, W1, W0]
  after_results_simp <;> rfl

set_option maxHeartbeats 4000000 in
theorem before_arg7 (c : Dev nD) : W5 m ρ c (Proc.devRef .tc main_arg7) = m ((c : Thread nD τ).loc main_arg7) := by
  dsimp only [W5, W4, W3, W2, W1, W0]
  after_results_simp <;> rfl

set_option maxHeartbeats 4000000 in
theorem before_arg8 (c : Dev nD) : W5 m ρ c (Proc.devRef .tc main_arg8) = m ((c : Thread nD τ).loc main_arg8) := by
  dsimp only [W5, W4, W3, W2, W1, W0]
  after_results_simp <;> rfl

set_option maxHeartbeats 4000000 in
theorem before_arg9 (c : Dev nD) : W5 m ρ c (Proc.devRef .tc main_arg9) = m ((c : Thread nD τ).loc main_arg9) := by
  dsimp only [W5, W4, W3, W2, W1, W0]
  after_results_simp <;> rfl

/-! ## After the first launch -/

/-- The first launch's output array is `hidden` of the arguments. -/
theorem hidden_eq (c : Dev nD) : W6 m ρ c (Proc.devRef .tc main_v45) = (Cert.RefSpec.hidden (m ((c : Thread nD τ).loc main_arg1)) (m ((c : Thread nD τ).loc main_arg0)) (m ((c : Thread nD τ).loc main_arg2)) (m ((c : Thread nD τ).loc main_arg3)) (m ((c : Thread nD τ).loc main_arg4))) := by
  have h : W6 m ρ c (Proc.devRef .tc main_v45) = (dat0 (V5 m ρ) c).arrAt 5 cfg0.N := W6_arr m ρ c 5
  rw [h, Layer1.final (V5 m ρ) c]
  show layer (R := 200000) (K := 165) (N := 512) (W5 m ρ c (Proc.devRef .tc main_arg0)) (W5 m ρ c (Proc.devRef .tc main_v43))
    (W5 m ρ c (Proc.devRef .tc main_arg2)) (W5 m ρ c (Proc.devRef .tc main_arg3)) (W5 m ρ c (Proc.devRef .tc main_v44)) = _
  rw [Entry1.at_arg0, Entry1.at_v43, Entry1.at_arg2, Entry1.at_arg3, Entry1.at_v44, cast_rowOf]
  rfl

/-! ## What the second launch reads -/

set_option maxHeartbeats 4000000 in
/-- The hidden array. -/
theorem at_v45 (c : Dev nD) : W7 m ρ c (Proc.devRef .tc main_v45) = (Cert.RefSpec.hidden (m ((c : Thread nD τ).loc main_arg1)) (m ((c : Thread nD τ).loc main_arg0)) (m ((c : Thread nD τ).loc main_arg2)) (m ((c : Thread nD τ).loc main_arg3)) (m ((c : Thread nD τ).loc main_arg4))) := by
  show StableHlo.after hostOps1 (W6 m ρ c) (Proc.devRef .tc main_v45) = _
  after_results_simp
  exact hidden_eq m ρ c

set_option maxHeartbeats 4000000 in
/-- The propagated hidden array. -/
theorem at_v58 (c : Dev nD) : W7 m ρ c (Proc.devRef .tc main_v58) = Cert.RefSpec.prop512 (m ((c : Thread nD τ).loc main_arg1)) (Cert.RefSpec.hidden (m ((c : Thread nD τ).loc main_arg1)) (m ((c : Thread nD τ).loc main_arg0)) (m ((c : Thread nD τ).loc main_arg2)) (m ((c : Thread nD τ).loc main_arg3)) (m ((c : Thread nD τ).loc main_arg4))) := by
  show StableHlo.after hostOps1 (W6 m ρ c) (Proc.devRef .tc main_v58) = _
  after_results_simp
  rw [hidden_eq m ρ c, W6_of_ne m ρ c main_v30 (by decide), W6_of_ne m ρ c main_v3 (by decide), W6_of_ne m ρ c main_v1 (by decide),
    Entry1.at_v30, Entry1.at_v3, Entry1.at_v1]
  rfl

set_option maxHeartbeats 4000000 in
theorem at_arg5 (c : Dev nD) : W7 m ρ c (Proc.devRef .tc main_arg5) = m ((c : Thread nD τ).loc main_arg5) := by
  show StableHlo.after hostOps1 (W6 m ρ c) (Proc.devRef .tc main_arg5) = _
  after_results_simp
  rw [W6_of_ne m ρ c main_arg5 (by decide)]
  exact before_arg5 m ρ c

set_option maxHeartbeats 4000000 in
theorem at_arg6 (c : Dev nD) : W7 m ρ c (Proc.devRef .tc main_arg6) = m ((c : Thread nD τ).loc main_arg6) := by
  show StableHlo.after hostOps1 (W6 m ρ c) (Proc.devRef .tc main_arg6) = _
  after_results_simp
  rw [W6_of_ne m ρ c main_arg6 (by decide)]
  exact before_arg6 m ρ c

set_option maxHeartbeats 4000000 in
theorem at_arg8 (c : Dev nD) : W7 m ρ c (Proc.devRef .tc main_arg8) = m ((c : Thread nD τ).loc main_arg8) := by
  show StableHlo.after hostOps1 (W6 m ρ c) (Proc.devRef .tc main_arg8) = _
  after_results_simp
  rw [W6_of_ne m ρ c main_arg8 (by decide)]
  exact before_arg8 m ρ c

set_option maxHeartbeats 4000000 in
/-- The second layer's bias row. -/
theorem at_v59 (c : Dev nD) : W7 m ρ c (Proc.devRef .tc main_v59) = rowOf (m ((c : Thread nD τ).loc main_arg7)) := by
  show StableHlo.after hostOps1 (W6 m ρ c) (Proc.devRef .tc main_v59) = _
  after_results_simp
  rw [W6_of_ne m ρ c main_arg7 (by decide), before_arg7 m ρ c]
  exact cast_rowOf _ _

set_option maxHeartbeats 4000000 in
/-- The head's bias row. -/
theorem at_v60 (c : Dev nD) : W7 m ρ c (Proc.devRef .tc main_v60) = rowOf (m ((c : Thread nD τ).loc main_arg9)) := by
  show StableHlo.after hostOps1 (W6 m ρ c) (Proc.devRef .tc main_v60) = _
  after_results_simp
  rw [W6_of_ne m ρ c main_arg9 (by decide), before_arg9 m ρ c]
  exact cast_rowOf _ _

end Cert.KernelIdeal.Entry2

end
-- ==== Proof.KernelValue.lean ====
/-
  The idealized kernel program's result is the network of the arguments.

  The second launch leaves in the result array the layer and head of the arrays it reads (KernelLayer2.lean); those
  arrays are the hidden array, its propagation along the weighted edges, the weights and the two bias rows
  (KernelEntry2.lean). Put together, the result array ends at `net` of the arguments (RefSpec.lean) — the function the
  reference program computes too.
-/
import proofs.«126151_j64364379898206_1_alg».proof.Proof.KernelRun
import proofs.«126151_j64364379898206_1_alg».proof.Proof.KernelLayer2
import proofs.«126151_j64364379898206_1_alg».proof.Proof.KernelEntry2

set_option maxRecDepth 16384

noncomputable section

namespace Cert.KernelIdeal.NetValue

open Cert.KernelIdeal Cert.KernelIdeal.Gen Cert.ChebLayer Cert.BiasReluRows
open Idealize.ShloMosaic Idealize.ShloMosaic.TcCoe Idealize.SL.Sem

variable (m : (ℓ : Loc nD τ sig) → Buf (Elt Ideal) ℓ) (ρ : Dev nD → PrngReg)

/-- The network of a memory's argument arrays, on device `c`. -/
abbrev netOf (c : Dev nD) : Buf (Elt Ideal) ((c.tc : Thread nD τ).loc main_v61) :=
  Cert.RefSpec.net (m ((c.tc : Thread nD τ).loc main_arg1)) (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- The last boundary's contents of the result buffer: the network of the arguments. -/
theorem result_eq (c : Dev nD) : W8 m ρ c (Proc.devRef .tc main_v61) = netOf m c := by
  have h : W8 m ρ c (Proc.devRef .tc main_v61) = (dat1 (V7 m ρ) c).arrAt 7 cfg1.N := W8_arr m ρ c 7
  rw [h, Layer2.final (V7 m ρ) c]
  show layerHead (R := 200000) (K := 512) (N := 512) (C := 2) (W7 m ρ c (Proc.devRef .tc main_v45)) (W7 m ρ c (Proc.devRef .tc main_v58))
    (W7 m ρ c (Proc.devRef .tc main_arg5)) (W7 m ρ c (Proc.devRef .tc main_arg6)) (W7 m ρ c (Proc.devRef .tc main_v59))
    (W7 m ρ c (Proc.devRef .tc main_arg8)) (W7 m ρ c (Proc.devRef .tc main_v60)) = _
  rw [Entry2.at_v45, Entry2.at_v58, Entry2.at_arg5, Entry2.at_arg6, Entry2.at_v59, Entry2.at_arg8, Entry2.at_v60]
  rfl

/-- Every weakly fair execution of the idealized kernel program terminates, nothing faulting, with the result array at
    the network of the arguments and the arguments unchanged. -/
theorem run : θ_run defs (onTc (τ := τ) (main (F := Ideal))) ⟨m, fun _ => 0, ρ⟩ (fun r => ∀ c : Dev nD,
      r.2.mem ((c.tc : Thread nD τ).loc main_v61) = netOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (Run.run_result m ρ)

end Cert.KernelIdeal.NetValue

end
-- ==== Proof.lean ====
/-
  Two graph-convolution layers and a linear head, computed two ways, are one function of the arguments on the extended reals.

  Both programs start from the same array operations on the edge array (each node's count of leaving edges, its power
  -1/2 where positive, the weight `-dis s · dis d` of each edge `s → d`) and both propagate rows along the weighted
  edges by the same gather, scale and scatter-add. They differ only in how the dense part is computed. The reference
  applies, to whole arrays, `relu (x · W1_0 + prop x · W1_1 + b1)` and then `relu (h · W2_0 + prop h · W2_1 + b2) · Wl + bl`.
  The kernel computes each of the two in a launch that walks 200 blocks of 1000 rows, narrowing its operands' format
  before every product (which changes nothing on the extended reals) and multiplying into a zero accumulator. A row of
  either result reads the same row of its two input arrays only, so the blocks the launches write back are the blocks
  of the whole-array functions, and they tile the arrays. Each side forms its sums, products and maxima in the same
  order, so no law of arithmetic is needed beyond reading a matrix product as a sum over the contracted index, and the
  precondition (finite inputs) is not used.

  Modules: LibChebLayer.lean (the layer and the layer with head, their block and whole-array spellings, the row-block
  laws); RefSpec.lean (the network `net`, the propagation spelt once); RefValue.lean (the reference's result is `net`);
  KernelLayer1.lean, KernelLayer2.lean (what each launch leaves in its output array); KernelEntry1.lean,
  KernelEntry2.lean (what each launch reads); KernelValue.lean (the kernel program's result is `net`).
-/
import proofs.«126151_j64364379898206_1_alg».proof.Defs
import proofs.«126151_j64364379898206_1_alg».proof.Proof.Gen.Kernel
import proofs.«126151_j64364379898206_1_alg».proof.Proof.Gen.Kernel.Skeleton
import proofs.«126151_j64364379898206_1_alg».proof.Proof.Gen.Kernel.Launch
import proofs.«126151_j64364379898206_1_alg».proof.Proof.Gen.Kernel.Points
import proofs.«126151_j64364379898206_1_alg».proof.Proof.Gen.Kernel.Frame
import proofs.«126151_j64364379898206_1_alg».proof.Proof.Gen.KernelIdeal
import proofs.«126151_j64364379898206_1_alg».proof.Proof.Gen.KernelIdeal.Skeleton
import proofs.«126151_j64364379898206_1_alg».proof.Proof.Gen.KernelIdeal.Launch
import proofs.«126151_j64364379898206_1_alg».proof.Proof.Gen.KernelIdeal.Points
import proofs.«126151_j64364379898206_1_alg».proof.Proof.Gen.KernelIdeal.Frame
import proofs.«126151_j64364379898206_1_alg».proof.Proof.Gen.ReferenceIdeal
import proofs.«126151_j64364379898206_1_alg».proof.Proof.Gen.Pre_finite_inputs
import proofs.«126151_j64364379898206_1_alg».proof.Proof.RefValue
import proofs.«126151_j64364379898206_1_alg».proof.Proof.KernelValue
import Idealize.ShloMosaic.Adequacy
import Idealize.ShloMosaic.Init

noncomputable section

namespace Cert.Proof

open Idealize.ShloMosaic Idealize.SL.Sem

/-- The kernel program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel program. -/
theorem preserves : Cert.preserves_Kernel_KernelIdeal := trivial

/-- From memories that agree on the arguments, both idealized programs end with the result array at the network of
    the arguments. -/
theorem algebraic : Cert.algebraic_KernelIdeal_ReferenceIdeal := by
  intro m ρ m' ρ' _ hagree
  refine ⟨fun c => Cert.KernelIdeal.NetValue.netOf m c, Cert.KernelIdeal.NetValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.RefSpec.res_eq_net]
  show Cert.RefSpec.net (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
